-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S2x512x512 : Shape := ⟨3, ![2, 512, 512]⟩
abbrev S4x128 : Shape := ⟨2, ![4, 128]⟩
abbrev S2x128x128 : Shape := ⟨3, ![2, 128, 128]⟩
abbrev S2x128 : Shape := ⟨2, ![2, 128]⟩
abbrev S2x1x128 : Shape := ⟨3, ![2, 1, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S4x128 : S_.BroadcastsInDim S4x128 (![] : Fin 0 → Fin S4x128.rank)
  reducesTo_S4x128_S_d0_1 : S4x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x1x128 : S_.BroadcastsInDim S2x1x128 (![] : Fin 0 → Fin S2x1x128.rank)
  reducesTo_S2x1x128_S_d0_1_2 : S2x1x128.ReducesTo [0, 1, 2] S_

variable [Facts]

def fn_part2 {F : FTy → Type} [FloatOps F] (main_arg7 : FVec F S2x1x128 .f32) (main_v33 : IVec S_ 1) : IVec S_ 1 :=
  let main_v34 : FVec F S2x1x128 .f32 := Host.absf main_arg7
  let main_cst_12 : FVec F S_ .f32 := constant S_ .f32 0x7F800000#32
  let main_v35 : FVec F S2x1x128 .f32 := broadcastInDim S2x1x128 ![] bcast_S_S2x1x128 main_cst_12
  let main_v36 : IVec S2x1x128 1 := cmpf .olt main_v34 main_v35
  let main_c_13 : IVec S_ 1 := constantI S_ 1 1#1
  let main_v37 : IVec S_ 1 := (fun x v => Host.reduce IntOp.andi x v reducesTo_S2x1x128_S_d0_1_2 h_S_) main_v36 main_c_13
  let main_v38 : IVec S_ 1 := andi main_v33 main_v37
  main_v38

def fn_part1 {F : FTy → Type} [FloatOps F] (main_arg4 : FVec F S2x128x128 .f32) (main_arg5 : FVec F S2x128x128 .f32) (main_arg6 : FVec F S2x128 .f32) (main_arg7 : FVec F S2x1x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg6
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg7 main_v33

def fn {F : FTy → Type} [FloatOps F] (main_arg0 : FVec F S512x128 .f32) (main_arg1 : FVec F S2x512x512 .f32) (main_arg2 : FVec F S4x128 .f32) (main_arg3 : FVec F S2x128x128 .f32) (main_arg4 : FVec F S2x128x128 .f32) (main_arg5 : FVec F S2x128x128 .f32) (main_arg6 : FVec F S2x128 .f32) (main_arg7 : FVec F S2x1x128 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_arg6 main_arg7 main_v13 main_v16
-- ==== Kernel.lean ====
abbrev S512x128 : Shape := ⟨2, ![512, 128]⟩
abbrev S2x512x512 : Shape := ⟨3, ![2, 512, 512]⟩
abbrev S4x128 : Shape := ⟨2, ![4, 128]⟩
abbrev S2x128x128 : Shape := ⟨3, ![2, 128, 128]⟩
abbrev S2x128 : Shape := ⟨2, ![2, 128]⟩
abbrev S2x1x128 : Shape := ⟨3, ![2, 1, 128]⟩
abbrev S1x512x512 : Shape := ⟨3, ![1, 512, 512]⟩
abbrev S512x512 : Shape := ⟨2, ![512, 512]⟩
abbrev S1024x512 : Shape := ⟨2, ![1024, 512]⟩
abbrev S1x1024 : Shape := ⟨2, ![1, 1024]⟩
abbrev S1x512 : Shape := ⟨2, ![1, 512]⟩
abbrev S128x512 : Shape := ⟨2, ![128, 512]⟩
abbrev S128x2 : Shape := ⟨2, ![128, 2]⟩
abbrev S1x1x128 : Shape := ⟨3, ![1, 1, 128]⟩
abbrev S1x128 : Shape := ⟨2, ![1, 128]⟩
abbrev S128x1 : Shape := ⟨2, ![128, 1]⟩
abbrev S128x1024 : Shape := ⟨2, ![128, 1024]⟩
abbrev S1x128x128 : Shape := ⟨3, ![1, 128, 128]⟩
abbrev S128x128 : Shape := ⟨2, ![128, 128]⟩

abbrev nBuf : Space → Nat
  | .hbm => 9
  | .vmem => 9
  | .smem => 0
  | _ => 0

abbrev bufTy : (tb : Table) → Fin (tcTables nBuf tb) → BufTy
  | .hbm, ⟨0, _⟩ => ⟨S512x128, .f32⟩
  | .hbm, ⟨1, _⟩ => ⟨S2x512x512, .f32⟩
  | .hbm, ⟨2, _⟩ => ⟨S4x128, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S2x128, .f32⟩
  | .hbm, ⟨7, _⟩ => ⟨S2x1x128, .f32⟩
  | .hbm, ⟨8, _⟩ => ⟨S512x128, .f32⟩
  | .local _ .vmem, ⟨0, _⟩ => ⟨S2x512x512, .f32⟩
  | .local _ .vmem, ⟨1, _⟩ => ⟨S512x128, .f32⟩
  | .local _ .vmem, ⟨2, _⟩ => ⟨S4x128, .f32⟩
  | .local _ .vmem, ⟨3, _⟩ => ⟨S2x128x128, .f32⟩
  | .local _ .vmem, ⟨4, _⟩ => ⟨S2x128x128, .f32⟩
  | .local _ .vmem, ⟨5, _⟩ => ⟨S2x128x128, .f32⟩
  | .local _ .vmem, ⟨6, _⟩ => ⟨S2x128, .f32⟩
  | .local _ .vmem, ⟨7, _⟩ => ⟨S2x1x128, .f32⟩
  | .local _ .vmem, ⟨8, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

class Facts₀ : Prop where
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  natLt_1_32 : 1 < 32
  bitsLt_bf16_f32 : FTy.bits .bf16 < FTy.bits .f32
  inb_S2x512x512_S1x512x512_1_0_0 : ∀ a, (![1, 0, 0] : Fin 3 → Nat) a + S1x512x512.size a ≤ S2x512x512.size a
  concatenates_S512x512_S512x512_S1024x512_d0 : Shape.Concatenates [S512x512, S512x512] S1024x512 0
  concatenates_S1x512_S1x512_S1x1024_d1 : Shape.Concatenates [S1x512, S1x512] S1x1024 1
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S4x128_S2x128_0_0 : ∀ a, (![0, 0] : Fin 2 → Nat) a + S2x128.size a ≤ S4x128.size a
  h_S2x128 : 0 < S2x128.numel
  transposes_S2x128_p1_0_S128x2 : S2x128.Transposes [1, 0] S128x2
  inb_S2x128_S2x128_0_0 : ∀ a, (![0, 0] : Fin 2 → Nat) a + S2x128.size a ≤ S2x128.size a
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  inb_S2x1x128_S1x1x128_1_0_0 : ∀ a, (![1, 0, 0] : Fin 3 → Nat) a + S1x1x128.size a ≤ S2x1x128.size a
  concatenates_S1x128_S1x128_S2x128_d0 : Shape.Concatenates [S1x128, S1x128] S2x128 0
  slices_S128x2_o0_0_S128x1 : S128x2.Slices ![0, 0] S128x1
  broadcasts_S128x1_S128x512 : S128x1.Broadcasts S128x512
  slices_S128x2_o0_1_S128x1 : S128x2.Slices ![0, 1] S128x1
  concatenates_S128x512_S128x512_S128x1024_d1 : Shape.Concatenates [S128x512, S128x512] S128x1024 1
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  broadcasts_S1x1024_S128x1024 : S1x1024.Broadcasts S128x1024
  broadcasts_S1x512_S128x512 : S1x512.Broadcasts S128x512
  inb_S2x128x128_S1x128x128_1_0_0 : ∀ a, (![1, 0, 0] : Fin 3 → Nat) a + S1x128x128.size a ≤ S2x128x128.size a
  transposes_S128x512_p1_0_S512x128 : S128x512.Transposes [1, 0] S512x128
  dot_S1x1024_S1024x512_S1x512_1_0_0_1_n_n_wf : DotDims.WF S1x1024 S1024x512 S1x512 [1] [0] [0] [1] [] []
  dot_S128x128_S128x1024_S128x1024_0_0_1_1_n_n_wf : DotDims.WF S128x128 S128x1024 S128x1024 [0] [0] [1] [1] [] []
  dot_S128x1024_S1024x512_S128x512_1_0_0_1_n_n_wf : DotDims.WF S128x1024 S1024x512 S128x512 [1] [0] [0] [1] [] []
  dot_S128x128_S128x512_S128x512_0_0_1_1_n_n_wf : DotDims.WF S128x128 S128x512 S128x512 [0] [0] [1] [1] [] []
  dot_S128x128_S128x2_S128x2_0_0_1_1_n_n_wf : DotDims.WF S128x128 S128x2 S128x2 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole

variable [Facts₀]

def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S128x128_S128x1024_S128x1024_0_0_1_1_n_n : DotDims S128x128 S128x1024 S128x1024 where
  lhsContracting := [0]
  rhsContracting := [0]
  lhsNonContracting := [1]
  rhsNonContracting := [1]
  lhsBatch := []
  rhsBatch := []
  wf := dot_S128x128_S128x1024_S128x1024_0_0_1_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x128_S128x512_S128x512_0_0_1_1_n_n : DotDims S128x128 S128x512 S128x512 where
  lhsContracting := [0]
  rhsContracting := [0]
  lhsNonContracting := [1]
  rhsNonContracting := [1]
  lhsBatch := []
  rhsBatch := []
  wf := dot_S128x128_S128x512_S128x512_0_0_1_1_n_n_wf
def dot_S128x128_S128x2_S128x2_0_0_1_1_n_n : DotDims S128x128 S128x2 S128x2 where
  lhsContracting := [0]
  rhsContracting := [0]
  lhsNonContracting := [1]
  rhsNonContracting := [1]
  lhsBatch := []
  rhsBatch := []
  wf := dot_S128x128_S128x2_S128x2_0_0_1_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg0) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_v0) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x128 : Shape := ⟨2, ![512, 128]⟩
abbrev S2x512x512 : Shape := ⟨3, ![2, 512, 512]⟩
abbrev S4x128 : Shape := ⟨2, ![4, 128]⟩
abbrev S2x128x128 : Shape := ⟨3, ![2, 128, 128]⟩
abbrev S2x128 : Shape := ⟨2, ![2, 128]⟩
abbrev S2x1x128 : Shape := ⟨3, ![2, 1, 128]⟩
abbrev S512 : Shape := ⟨1, ![512]⟩
abbrev S512x512 : Shape := ⟨2, ![512, 512]⟩
abbrev S262144 : Shape := ⟨1, ![262144]⟩
abbrev S1x512 : Shape := ⟨2, ![1, 512]⟩
abbrev S1x512x512 : Shape := ⟨3, ![1, 512, 512]⟩
abbrev S_ : Shape := ⟨0, ![]⟩
abbrev S524288 : Shape := ⟨1, ![524288]⟩
abbrev S524288x1 : Shape := ⟨2, ![524288, 1]⟩
abbrev S524288x128 : Shape := ⟨2, ![524288, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 201
  | .vmem => 0
  | .smem => 0
  | _ => 0

abbrev hbmTy0_0 (i : Nat) : BufTy := match i % 128 with
  | 0 => ⟨S512x128, .f32⟩
  | 1 => ⟨S2x512x512, .f32⟩
  | 2 => ⟨S4x128, .f32⟩
  | 3 => ⟨S2x128x128, .f32⟩
  | 4 => ⟨S2x128x128, .f32⟩
  | 5 => ⟨S2x128x128, .f32⟩
  | 6 => ⟨S2x128, .f32⟩
  | 7 => ⟨S2x1x128, .f32⟩
  | 8 => ⟨S512, .i32⟩
  | 9 => ⟨S512x512, .i32⟩
  | 10 => ⟨S262144, .i32⟩
  | 11 => ⟨S512, .i32⟩
  | 12 => ⟨S1x512, .i32⟩
  | 13 => ⟨S512x512, .i32⟩
  | 14 => ⟨S262144, .i32⟩
  | 15 => ⟨S1x512x512, .f32⟩
  | 16 => ⟨S512x512, .f32⟩
  | 17 => ⟨S_, .f32⟩
  | 18 => ⟨S512x512, .f32⟩
  | 19 => ⟨S512x512, .i1⟩
  | 20 => ⟨S262144, .i1⟩
  | 21 => ⟨S_, .i32⟩
  | 22 => ⟨S_, .i32⟩
  | 23 => ⟨S262144, .i32⟩
  | 24 => ⟨S262144, .i32⟩
  | 25 => ⟨S_, .i32⟩
  | 26 => ⟨S_, .i32⟩
  | 27 => ⟨S262144, .i32⟩
  | 28 => ⟨S262144, .i32⟩
  | 29 => ⟨S_, .i32⟩
  | 30 => ⟨S262144, .i32⟩
  | 31 => ⟨S1x512x512, .f32⟩
  | 32 => ⟨S512x512, .f32⟩
  | 33 => ⟨S_, .f32⟩
  | 34 => ⟨S512x512, .f32⟩
  | 35 => ⟨S512x512, .i1⟩
  | 36 => ⟨S262144, .i1⟩
  | 37 => ⟨S_, .i32⟩
  | 38 => ⟨S_, .i32⟩
  | 39 => ⟨S262144, .i32⟩
  | 40 => ⟨S262144, .i32⟩
  | 41 => ⟨S_, .i32⟩
  | 42 => ⟨S_, .i32⟩
  | 43 => ⟨S262144, .i32⟩
  | 44 => ⟨S262144, .i32⟩
  | 45 => ⟨S_, .i32⟩
  | 46 => ⟨S262144, .i32⟩
  | 47 => ⟨S524288, .i32⟩
  | 48 => ⟨S524288, .i32⟩
  | 49 => ⟨S524288, .i32⟩
  | 50 => ⟨S524288, .i1⟩
  | 51 => ⟨S_, .i32⟩
  | 52 => ⟨S512, .i32⟩
  | 53 => ⟨S524288, .i32⟩
  | 54 => ⟨S_, .i32⟩
  | 55 => ⟨S524288, .i32⟩
  | 56 => ⟨S524288, .i1⟩
  | 57 => ⟨S_, .i32⟩
  | 58 => ⟨S524288, .i32⟩
  | 59 => ⟨S524288, .i32⟩
  | 60 => ⟨S524288, .i32⟩
  | 61 => ⟨S524288x1, .i32⟩
  | 62 => ⟨S512, .i32⟩
  | 63 => ⟨S512, .f32⟩
  | 64 => ⟨S_, .f32⟩
  | 65 => ⟨S512, .f32⟩
  | 66 => ⟨S512, .i1⟩
  | 67 => ⟨S_, .f32⟩
  | 68 => ⟨S512, .f32⟩
  | 69 => ⟨S512, .f32⟩
  | 70 => ⟨S_, .f32⟩
  | 71 => ⟨S_, .f32⟩
  | 72 => ⟨S512, .f32⟩
  | 73 => ⟨S512, .f32⟩
  | 74 => ⟨S_, .i32⟩
  | 75 => ⟨S524288, .i32⟩
  | 76 => ⟨S524288, .i1⟩
  | 77 => ⟨S_, .i32⟩
  | 78 => ⟨S524288, .i32⟩
  | 79 => ⟨S524288, .i32⟩
  | 80 => ⟨S524288, .i32⟩
  | 81 => ⟨S524288x1, .i32⟩
  | 82 => ⟨S524288, .f32⟩
  | 83 => ⟨S_, .i32⟩
  | 84 => ⟨S524288, .i32⟩
  | 85 => ⟨S524288, .i1⟩
  | 86 => ⟨S_, .i32⟩
  | 87 => ⟨S524288, .i32⟩
  | 88 => ⟨S524288, .i32⟩
  | 89 => ⟨S524288, .i32⟩
  | 90 => ⟨S524288x1, .i32⟩
  | 91 => ⟨S524288, .f32⟩
  | 92 => ⟨S524288, .f32⟩
  | 93 => ⟨S524288, .f32⟩
  | 94 => ⟨S524288, .f32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x128, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x128, .f32⟩
  | 113 => ⟨S524288x128, .f32⟩
  | 114 => ⟨S1x128x128, .f32⟩
  | 115 => ⟨S128x128, .f32⟩
  | 116 => ⟨S524288x128, .f32⟩
  | 117 => ⟨S524288x1, .f32⟩
  | 118 => ⟨S524288x128, .f32⟩
  | 119 => ⟨S524288x128, .f32⟩
  | 120 => ⟨S_, .f32⟩
  | 121 => ⟨S512x128, .f32⟩
  | 122 => ⟨S_, .i32⟩
  | 123 => ⟨S524288, .i32⟩
  | 124 => ⟨S524288, .i1⟩
  | 125 => ⟨S_, .i32⟩
  | 126 => ⟨S524288, .i32⟩
  | 127 => ⟨S524288, .i32⟩
  | _ => ⟨S512x128, .f32⟩

abbrev hbmTy0_1 (i : Nat) : BufTy := match i % 128 with
  | 0 => ⟨S524288, .i32⟩
  | 1 => ⟨S524288x1, .i32⟩
  | 2 => ⟨S512x128, .f32⟩
  | 3 => ⟨S1x1x128, .f32⟩
  | 4 => ⟨S1x128, .f32⟩
  | 5 => ⟨S512x128, .f32⟩
  | 6 => ⟨S512x128, .f32⟩
  | 7 => ⟨S1x128x128, .f32⟩
  | 8 => ⟨S128x128, .f32⟩
  | 9 => ⟨S512x128, .f32⟩
  | 10 => ⟨S512x128, .f32⟩
  | 11 => ⟨S1x128, .f32⟩
  | 12 => ⟨S128, .f32⟩
  | 13 => ⟨S1x128, .f32⟩
  | 14 => ⟨S512x128, .f32⟩
  | 15 => ⟨S512x128, .f32⟩
  | 16 => ⟨S512x128, .f32⟩
  | 17 => ⟨S1x128x128, .f32⟩
  | 18 => ⟨S128x128, .f32⟩
  | 19 => ⟨S4x128, .f32⟩
  | 20 => ⟨S_, .i32⟩
  | 21 => ⟨S524288, .i32⟩
  | 22 => ⟨S524288, .i1⟩
  | 23 => ⟨S_, .i32⟩
  | 24 => ⟨S524288, .i32⟩
  | 25 => ⟨S524288, .i32⟩
  | 26 => ⟨S524288, .i32⟩
  | 27 => ⟨S524288x1, .i32⟩
  | 28 => ⟨S524288x128, .f32⟩
  | 29 => ⟨S_, .i32⟩
  | 30 => ⟨S524288, .i32⟩
  | 31 => ⟨S524288, .i1⟩
  | 32 => ⟨S_, .i32⟩
  | 33 => ⟨S524288, .i32⟩
  | 34 => ⟨S524288, .i32⟩
  | 35 => ⟨S524288, .i32⟩
  | 36 => ⟨S524288x1, .i32⟩
  | 37 => ⟨S524288x128, .f32⟩
  | 38 => ⟨S524288x128, .f32⟩
  | 39 => ⟨S1x128x128, .f32⟩
  | 40 => ⟨S128x128, .f32⟩
  | 41 => ⟨S524288x128, .f32⟩
  | 42 => ⟨S524288x1, .f32⟩
  | 43 => ⟨S524288x128, .f32⟩
  | 44 => ⟨S524288x128, .f32⟩
  | 45 => ⟨S_, .f32⟩
  | 46 => ⟨S512x128, .f32⟩
  | 47 => ⟨S_, .i32⟩
  | 48 => ⟨S524288, .i32⟩
  | 49 => ⟨S524288, .i1⟩
  | 50 => ⟨S_, .i32⟩
  | 51 => ⟨S524288, .i32⟩
  | 52 => ⟨S524288, .i32⟩
  | 53 => ⟨S524288, .i32⟩
  | 54 => ⟨S524288x1, .i32⟩
  | 55 => ⟨S512x128, .f32⟩
  | 56 => ⟨S1x1x128, .f32⟩
  | 57 => ⟨S1x128, .f32⟩
  | 58 => ⟨S512x128, .f32⟩
  | 59 => ⟨S512x128, .f32⟩
  | 60 => ⟨S1x128x128, .f32⟩
  | 61 => ⟨S128x128, .f32⟩
  | 62 => ⟨S512x128, .f32⟩
  | 63 => ⟨S512x128, .f32⟩
  | 64 => ⟨S1x128, .f32⟩
  | 65 => ⟨S128, .f32⟩
  | 66 => ⟨S1x128, .f32⟩
  | 67 => ⟨S512x128, .f32⟩
  | 68 => ⟨S512x128, .f32⟩
  | 69 => ⟨S512x128, .f32⟩
  | 70 => ⟨S1x128x128, .f32⟩
  | 71 => ⟨S128x128, .f32⟩
  | 72 => ⟨S4x128, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_v20 : Ref sig .tc := ⟨.hbm, 40, rfl⟩
abbrev main_c_4 : Ref sig .tc := ⟨.hbm, 41, rfl⟩
abbrev main_call3_v0 : Ref sig .tc := ⟨.hbm, 42, rfl⟩
abbrev main_call3_v1 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_c_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_cst_11 : Ref sig .tc := ⟨.hbm, 70, rfl⟩
abbrev main_call4_v0 : Ref sig .tc := ⟨.hbm, 71, rfl⟩
abbrev main_call4_v1 : Ref sig .tc := ⟨.hbm, 72, rfl⟩
abbrev main_v41 : Ref sig .tc := ⟨.hbm, 73, rfl⟩
abbrev main_c_12 : Ref sig .tc := ⟨.hbm, 74, rfl⟩
abbrev main_v42 : Ref sig .tc := ⟨.hbm, 75, rfl⟩
abbrev main_v43 : Ref sig .tc := ⟨.hbm, 76, rfl⟩
abbrev main_c_13 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_14 : Ref sig .tc := ⟨.hbm, 83, rfl⟩
abbrev main_v49 : Ref sig .tc := ⟨.hbm, 84, rfl⟩
abbrev main_v50 : Ref sig .tc := ⟨.hbm, 85, rfl⟩
abbrev main_c_15 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_16 : Ref sig .tc := ⟨.hbm, 95, rfl⟩
abbrev main_v59 : Ref sig .tc := ⟨.hbm, 96, rfl⟩
abbrev main_v60 : Ref sig .tc := ⟨.hbm, 97, rfl⟩
abbrev main_c_17 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_18 : Ref sig .tc := ⟨.hbm, 104, rfl⟩
abbrev main_v66 : Ref sig .tc := ⟨.hbm, 105, rfl⟩
abbrev main_v67 : Ref sig .tc := ⟨.hbm, 106, rfl⟩
abbrev main_c_19 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_20 : Ref sig .tc := ⟨.hbm, 120, rfl⟩
abbrev main_v80 : Ref sig .tc := ⟨.hbm, 121, rfl⟩
abbrev main_c_21 : Ref sig .tc := ⟨.hbm, 122, rfl⟩
abbrev main_v81 : Ref sig .tc := ⟨.hbm, 123, rfl⟩
abbrev main_v82 : Ref sig .tc := ⟨.hbm, 124, rfl⟩
abbrev main_c_22 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c_23 : Ref sig .tc := ⟨.hbm, 148, rfl⟩
abbrev main_v105 : Ref sig .tc := ⟨.hbm, 149, rfl⟩
abbrev main_v106 : Ref sig .tc := ⟨.hbm, 150, rfl⟩
abbrev main_c_24 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_c_25 : Ref sig .tc := ⟨.hbm, 157, rfl⟩
abbrev main_v112 : Ref sig .tc := ⟨.hbm, 158, rfl⟩
abbrev main_v113 : Ref sig .tc := ⟨.hbm, 159, rfl⟩
abbrev main_c_26 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_27 : Ref sig .tc := ⟨.hbm, 173, rfl⟩
abbrev main_v126 : Ref sig .tc := ⟨.hbm, 174, rfl⟩
abbrev main_c_28 : Ref sig .tc := ⟨.hbm, 175, rfl⟩
abbrev main_v127 : Ref sig .tc := ⟨.hbm, 176, rfl⟩
abbrev main_v128 : Ref sig .tc := ⟨.hbm, 177, rfl⟩
abbrev main_c_29 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩

abbrev nD : Nat := 1
abbrev τ : Topo := Topo.v7x

variable {F : FTy → Type} [FloatOps F]

class Facts₀ : Prop where
  bcast_S512_S512x512_0 : S512.BroadcastsInDim S512x512 (![0] : Fin 1 → Fin S512x512.rank)
  shapeCasts_S512x512_S262144 : S512x512.ShapeCasts S262144
  shapeCasts_S512_S1x512 : S512.ShapeCasts S1x512
  bcast_S1x512_S512x512_0_1 : S1x512.BroadcastsInDim S512x512 (![0, 1] : Fin 2 → Fin S512x512.rank)
  slices_S2x512x512_S1x512x512_0_0_0 : S2x512x512.Slices ![0, 0, 0] S1x512x512
  shapeCasts_S1x512x512_S512x512 : S1x512x512.ShapeCasts S512x512
  bcast_S_S512x512 : S_.BroadcastsInDim S512x512 (![] : Fin 0 → Fin S512x512.rank)
  bcast_S_S262144 : S_.BroadcastsInDim S262144 (![] : Fin 0 → Fin S262144.rank)
  slices_S2x512x512_S1x512x512_1_0_0 : S2x512x512.Slices ![1, 0, 0] S1x512x512
  concatenates_S262144_S262144_S524288_d0 : Shape.Concatenates [S262144, S262144] S524288 0
  bcast_S_S512 : S_.BroadcastsInDim S512 (![] : Fin 0 → Fin S512.rank)
  natLt_1_32 : 1 < 32
  bcast_S_S524288 : S_.BroadcastsInDim S524288 (![] : Fin 0 → Fin S524288.rank)
  bcast_S524288_S524288x1_0 : S524288.BroadcastsInDim S524288x1 (![0] : Fin 1 → Fin S524288x1.rank)
  slices_S2x128x128_S1x128x128_0_0_0 : S2x128x128.Slices ![0, 0, 0] S1x128x128
  shapeCasts_S1x128x128_S128x128 : S1x128x128.ShapeCasts S128x128
  bcast_S524288x1_S524288x128_0_1 : S524288x1.BroadcastsInDim S524288x128 (![0, 1] : Fin 2 → Fin S524288x128.rank)
  bcast_S_S512x128 : S_.BroadcastsInDim S512x128 (![] : Fin 0 → Fin S512x128.rank)
  slices_S2x1x128_S1x1x128_0_0_0 : S2x1x128.Slices ![0, 0, 0] S1x1x128
  shapeCasts_S1x1x128_S1x128 : S1x1x128.ShapeCasts S1x128
  bcast_S1x128_S512x128_0_1 : S1x128.BroadcastsInDim S512x128 (![0, 1] : Fin 2 → Fin S512x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  slices_S2x128x128_S1x128x128_1_0_0 : S2x128x128.Slices ![1, 0, 0] S1x128x128
  slices_S2x1x128_S1x1x128_1_0_0 : S2x1x128.Slices ![1, 0, 0] S1x1x128
  slices_S2x128_S1x128_1_0 : S2x128.Slices ![1, 0] S1x128
  scatter_S512_S524288x1_S524288_n_0_0_1_wf : ScatterDims.WF S512 S524288x1 S524288 [] [0] [0] 1
  gather_S512_S524288x1_S524288_n_0_n_n_0_1_1_wf : GatherDims.WF S512 S524288x1 S524288 [] [0] [] [0] [] 1 ![1]
  gather_S512x128_S524288x1_S524288x128_1_0_n_n_0_1_1128_wf : GatherDims.WF S512x128 S524288x1 S524288x128 [1] [0] [] [0] [] 1 ![1, 128]
  gather_S4x128_S524288x1_S524288x128_1_0_n_n_0_1_1128_wf : GatherDims.WF S4x128 S524288x1 S524288x128 [1] [0] [] [0] [] 1 ![1, 128]
  dot_S524288x128_S128x128_S524288x128_1_0_0_1_n_n_wf : DotDims.WF S524288x128 S128x128 S524288x128 [1] [0] [0] [1] [] []
  scatter_S512x128_S524288x1_S524288x128_1_0_0_1_wf : ScatterDims.WF S512x128 S524288x1 S524288x128 [1] [0] [0] 1
  dot_S512x128_S128x128_S512x128_1_0_0_1_n_n_wf : DotDims.WF S512x128 S128x128 S512x128 [1] [0] [0] [1] [] []
  dot_S4x128_S128x128_S4x128_1_0_0_1_n_n_wf : DotDims.WF S4x128 S128x128 S4x128 [1] [0] [0] [1] [] []

variable [Facts₀]

def scatter_S512_S524288x1_S524288_n_0_0_1 : ScatterDims S512 S524288x1 S524288 where
  updateWindowDims := []
  insertedWindowDims := [0]
  scatterDimsToOperandDims := [0]
  indexVectorDim := 1
  wf := scatter_S512_S524288x1_S524288_n_0_0_1_wf
def gather_S512_S524288x1_S524288_n_0_n_n_0_1_1 : GatherDims S512 S524288x1 S524288 where
  offsetDims := []
  collapsedSliceDims := [0]
  operandBatchingDims := []
  startIndicesBatchingDims := []
  startIndexMap := [0]
  indexVectorDim := 1
  sliceSizes := ![1]
  wf := gather_S512_S524288x1_S524288_n_0_n_n_0_1_1_wf
def gather_S512x128_S524288x1_S524288x128_1_0_n_n_0_1_1128 : GatherDims S512x128 S524288x1 S524288x128 where
  offsetDims := [1]
  collapsedSliceDims := [0]
  operandBatchingDims := []
  startIndicesBatchingDims := []
  startIndexMap := [0]
  indexVectorDim := 1
  sliceSizes := ![1, 128]
  wf := gather_S512x128_S524288x1_S524288x128_1_0_n_n_0_1_1128_wf
def gather_S4x128_S524288x1_S524288x128_1_0_n_n_0_1_1128 : GatherDims S4x128 S524288x1 S524288x128 where
  offsetDims := [1]
  collapsedSliceDims := [0]
  operandBatchingDims := []
  startIndicesBatchingDims := []
  startIndexMap := [0]
  indexVectorDim := 1
  sliceSizes := ![1, 128]
  wf := gather_S4x128_S524288x1_S524288x128_1_0_n_n_0_1_1128_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def scatter_S512x128_S524288x1_S524288x128_1_0_0_1 : ScatterDims S512x128 S524288x1 S524288x128 where
  updateWindowDims := [1]
  insertedWindowDims := [0]
  scatterDimsToOperandDims := [0]
  indexVectorDim := 1
  wf := scatter_S512x128_S524288x1_S524288x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf

class Facts : Prop extends Facts₀ where

variable [Facts]
-- ==== Proof.Spec.lean ====
/-
  The mathematics both programs compute, as one function of the argument arrays.

  A graph on 512 nodes with 2 relations: relation `e` has an edge from `s` to `t` when the adjacency entry
  `adj (e, s, t)` exceeds one half; `M e s t` is that comparison's bit. The in-degree of `t` counts the edges into
  `t` over both relations; `nrm t` is its inverse square root, and `0` at a node with no incoming edge.
  One layer sends node features `h` (512 x 128) and relation embeddings `r` (2 x 128) to
    tanh( nrm(n) * sum over edges (e, s -> n) of nrm(s) * ((h(s,.) * r(e,.)) W)(j)  +  ((h(n,.) * lr) Wl)(j)  +  b(j) ),
  and the relation embeddings to `r Wr`. The result is two layers.
-/
import Idealize.ShloMosaic.PureOps.Ideal
import Idealize.ShloMosaic.Lib.ValueIdx

noncomputable section

open scoped BigOperators

namespace Cert.Spec

open Idealize.ShloMosaic Idealize.ShloMosaic.ValueIdx

/-- A bit as the number 0 or 1. -/
def bit01 (b : BitVec 1) : EReal := if b = 1#1 then 1 else 0

/-- The edge bit of relation `e` from `s` to `t`: the adjacency entry exceeds one half. -/
def maskOf (adj : (⟨3, ![2, 512, 512]⟩ : Shape).Idx → EReal) (e : Fin 2) (s t : Fin 512) : BitVec 1 :=
  Ideal.cmp .ogt (adj (ix3 e s t)) (Ideal.ofBits .f32 0x3F000000#32)

section Graph
variable (M : Fin 2 → Fin 512 → Fin 512 → BitVec 1)

/-- The in-degree of `t`: the number of edges into `t`, over both relations. -/
def deg (t : Fin 512) : EReal := ∑ e : Fin 2, ∑ s : Fin 512, bit01 (M e s t)

/-- The degree normalisation: the inverse square root of the in-degree, `0` where it is `0`. -/
def nrm (t : Fin 512) : EReal := if 0 < deg M t then Ideal.rsqrt (deg M t) else 0

/-- One layer at node `n`, feature `j`. -/
def layer (h : Fin 512 → Fin 128 → EReal) (r : Fin 2 → Fin 128 → EReal) (W Wl : Fin 128 → Fin 128 → EReal)
    (b lr : Fin 128 → EReal) (n : Fin 512) (j : Fin 128) : EReal :=
  Ideal.tanh ((∑ e : Fin 2, ∑ s : Fin 512, ((∑ k : Fin 128, W k j * (h s k * r e k)) * nrm M s) * bit01 (M e s n)) * nrm M n
    + (∑ k : Fin 128, Wl k j * (h n k * lr k)) + b j)

end Graph

/-- The relation embeddings after one layer: `r Wr`. -/
def relStep (r : Fin 2 → Fin 128 → EReal) (Wr : Fin 128 → Fin 128 → EReal) (e : Fin 2) (j : Fin 128) : EReal :=
  ∑ k : Fin 128, Wr k j * r e k

/-- The whole computation: two layers over the argument arrays `x` (node features), `adj`, `rel` (the first two
    of its four rows are the forward relations), and per layer `l` the matrices `Ws l`, `Wl l`, `Wr l`, the bias row
    `bias l` and the self-loop relation `lr l`. -/
def out (x : (⟨2, ![512, 128]⟩ : Shape).Idx → EReal) (adj : (⟨3, ![2, 512, 512]⟩ : Shape).Idx → EReal)
    (rel : (⟨2, ![4, 128]⟩ : Shape).Idx → EReal) (Ws Wl Wr : (⟨3, ![2, 128, 128]⟩ : Shape).Idx → EReal)
    (bias : (⟨2, ![2, 128]⟩ : Shape).Idx → EReal) (lr : (⟨3, ![2, 1, 128]⟩ : Shape).Idx → EReal)
    (n : Fin 512) (j : Fin 128) : EReal :=
  layer (maskOf adj)
    (layer (maskOf adj) (fun s k => x (ix2 s k)) (fun e k => rel (ix2 (⟨e.val, by omega⟩ : Fin 4) k))
      (fun k j => Ws (ix3 (0 : Fin 2) k j)) (fun k j => Wl (ix3 (0 : Fin 2) k j))
      (fun j => bias (ix2 (0 : Fin 2) j)) (fun k => lr (ix3 (0 : Fin 2) (0 : Fin 1) k)))
    (relStep (fun e k => rel (ix2 (⟨e.val, by omega⟩ : Fin 4) k)) (fun k j => Wr (ix3 (0 : Fin 2) k j)))
    (fun k j => Ws (ix3 (1 : Fin 2) k j)) (fun k j => Wl (ix3 (1 : Fin 2) k j))
    (fun j => bias (ix2 (1 : Fin 2) j)) (fun k => lr (ix3 (1 : Fin 2) (0 : Fin 1) k)) n j

end Cert.Spec

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColDot.lean ====
/-
  A matrix product that contracts the FIRST axis of both operands, read at an index.

  The product of a `[K, R]` array with a `[K, C]` array into `[R, C]` that contracts the leading axis of both —
  the transposed left operand times the right operand, `lhsᵀ · rhs` — has the dimension numbers of the record
  `colDot` below, whose side condition is a parameter: any record with the same lists is one of them by unfolding.
  On the extended reals the product into a zero accumulator, read at `(p, q)`, is the sum over `k` of
  `lhs (k, p) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibColDot

open Idealize.ShloMosaic Idealize.ShloMosaic.ValueIdx

/-- The dimension numbers of a `[K, R] × [K, C] → [R, C]` product contracting the leading axis of both operands. -/
abbrev colDot (K R C : Nat)
    (wf : DotDims.WF ⟨2, ![K, R]⟩ ⟨2, ![K, C]⟩ ⟨2, ![R, C]⟩ [0] [0] [1] [1] [] []) :
    DotDims ⟨2, ![K, R]⟩ ⟨2, ![K, C]⟩ ⟨2, ![R, C]⟩ where
  lhsContracting := [0]
  rhsContracting := [0]
  lhsNonContracting := [1]
  rhsNonContracting := [1]
  lhsBatch := []
  rhsBatch := []
  wf := wf

section
variable {K R C : Nat} (wf : DotDims.WF ⟨2, ![K, R]⟩ ⟨2, ![K, C]⟩ ⟨2, ![R, C]⟩ [0] [0] [1] [1] [] [])

/-- The left operand's index for output `(p, q)` and contraction coordinate `k` is `(k, p)`. -/
theorem colDot_lhsIdx (p : Fin R) (q : Fin C) (k : Fin K) :
    (colDot K R C wf).lhsIdx (ix2 p q) ((contrEquiv1 (colDot K R C wf) K rfl rfl).symm k) = ix2 k p := by
  have hk := contrEquiv1_symm_val (colDot K R C wf) K rfl rfl k
  funext a
  refine Fin.ext ?_
  match a with
  | ⟨0, _⟩ =>
    exact ((colDot K R C wf).lhsIdx_val_of_single (cl := (0 : Fin 2)) rfl (ix2 p q) _).trans hk
  | ⟨1, _⟩ =>
    show ((colDot K R C wf).lhsIdx (ix2 p q) ((contrEquiv1 (colDot K R C wf) K rfl rfl).symm k) 1).val = p.val
    unfold DotDims.lhsIdx
    rw [dif_neg (show ¬(1 : Fin 2) ∈ (colDot K R C wf).lhsBatch from List.not_mem_nil),
      dif_pos (show (1 : Fin 2) ∈ (colDot K R C wf).lhsNonContracting from List.mem_singleton.mpr rfl)]
    rfl

/-- The right operand's index for output `(p, q)` and contraction coordinate `k` is `(k, q)`. -/
theorem colDot_rhsIdx (p : Fin R) (q : Fin C) (k : Fin K) :
    (colDot K R C wf).rhsIdx (ix2 p q) ((contrEquiv1 (colDot K R C wf) K rfl rfl).symm k) = ix2 k q := by
  have hk := contrEquiv1_symm_val (colDot K R C wf) K rfl rfl k
  funext a
  refine Fin.ext ?_
  match a with
  | ⟨0, _⟩ =>
    exact ((colDot K R C wf).rhsIdx_val_of_single (cr := (0 : Fin 2)) rfl (ix2 p q) _).trans hk
  | ⟨1, _⟩ =>
    show ((colDot K R C wf).rhsIdx (ix2 p q) ((contrEquiv1 (colDot K R C wf) K rfl rfl).symm k) 1).val = q.val
    unfold DotDims.rhsIdx
    rw [dif_neg (show ¬(1 : Fin 2) ∈ (colDot K R C wf).rhsBatch from List.not_mem_nil),
      dif_pos (show (1 : Fin 2) ∈ (colDot K R C wf).rhsNonContracting from List.mem_singleton.mpr rfl)]
    rfl

/-- THE PRODUCT `lhsᵀ · rhs` INTO A ZERO ACCUMULATOR AT `(p, q)`: the sum over `k` of `lhs (k, p) * rhs (k, q)`. -/
theorem matmul_zero_apply {φ₁ φ₂ : FTy} (prec : Option ContractPrecision)
    (lhs : FVec Ideal ⟨2, ![K, R]⟩ φ₁) (rhs : FVec Ideal ⟨2, ![K, C]⟩ φ₂) (p : Fin R) (q : Fin C) :
    FloatOps.matmul (colDot K R C wf) prec lhs rhs (constant ⟨2, ![R, C]⟩ .f32 0x00000000#32) (ix2 p q)
      = ∑ k : Fin K, lhs (ix2 k p) * rhs (ix2 k q) := by
  rw [Ideal.matmul_constant_zero_apply, ← Equiv.sum_comp (contrEquiv1 (colDot K R C wf) K rfl rfl).symm]
  refine Finset.sum_congr rfl fun k _ => ?_
  rw [colDot_lhsIdx wf p q k, colDot_rhsIdx wf p q k]

end

end Cert.LibColDot

end
-- ==== Proof.KMask.lean ====
/-
  The kernel's graph quantities read at an index.

  The kernel stacks the two relations' edge masks into one array of 1024 rows (relation `e`, source `s` at row
  `512 e + s`), as the numbers 0 and 1; a row of ones times that array is the in-degree, and a guarded inverse square
  root of it the normalisation. This file reads those arrays at an index, for any operands with the stated entries:
  the layout operations the kernel uses (two blocks stacked or side by side, a column broadcast along rows, a load of
  a leading slab or of leading rows), the mask's entries, the in-degree and the normalisation.
-/
import proofs.«113383_g81114752352452_cont_sun_c4_492_19_alg».proof.Proof.Spec
import proofs.«113383_g81114752352452_cont_sun_c4_492_19_alg».proof.Proof.LibPlainDot
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.IdealHost

noncomputable section
open scoped BigOperators
namespace Cert.KMask
open Idealize.ShloMosaic Idealize.ShloMosaic.ValueIdx Cert.Spec

/-- A bit, widened to 32 bits and read as a signed integer, is the number 0 or 1. -/
theorem bit_real (b : BitVec 1) : (((b.setWidth 32).toInt : ℝ) : EReal) = bit01 b := by
  rcases BitVec.eq_zero_or_eq_one b with rfl | rfl
  · simp [bit01]
  · simp [bit01]

/-- Row `s` of the first of two stacked blocks of 512 rows. -/
abbrev lo (s : Fin 512) : Fin 1024 := ⟨s.val, Nat.lt_of_lt_of_le s.isLt (by decide)⟩
/-- Row `s` of the second of two stacked blocks of 512 rows. -/
abbrev hi (s : Fin 512) : Fin 1024 := ⟨512 + s.val, by have := s.isLt; omega⟩

/-- A sum over 1024 positions is the sum over the first 512 plus the sum over the last 512. -/
theorem sum_1024 (f : Fin 1024 → EReal) : ∑ K : Fin 1024, f K = ∑ s : Fin 512, f (lo s) + ∑ s : Fin 512, f (hi s) :=
  Fin.sum_univ_add (a := 512) (b := 512) f

section Layout
variable {α : Type}

/-- Two blocks of 512 rows stacked: a row of the first block. -/
theorem cat0_lo (x₁ x₂ : (⟨2, ![512, 512]⟩ : Shape).Idx → α)
    (h : Shape.Concatenates [(⟨2, ![512, 512]⟩ : Shape), ⟨2, ![512, 512]⟩] ⟨2, ![1024, 512]⟩ 0) (s t : Fin 512) :
    concatenate ⟨2, ![1024, 512]⟩ 0 [⟨_, x₁⟩, ⟨_, x₂⟩] h (ix2 (lo s) t) = x₁ (ix2 s t) :=
  concatenate_pair_apply_left 0 x₁ x₂ h (ix2 (lo s) t) rfl (ix2 s t) fun b => match b with | ⟨0, _⟩ => rfl | ⟨1, _⟩ => rfl

/-- Two blocks of 512 rows stacked: a row of the second block. -/
theorem cat0_hi (x₁ x₂ : (⟨2, ![512, 512]⟩ : Shape).Idx → α)
    (h : Shape.Concatenates [(⟨2, ![512, 512]⟩ : Shape), ⟨2, ![512, 512]⟩] ⟨2, ![1024, 512]⟩ 0) (s t : Fin 512) :
    concatenate ⟨2, ![1024, 512]⟩ 0 [⟨_, x₁⟩, ⟨_, x₂⟩] h (ix2 (hi s) t) = x₂ (ix2 s t) :=
  concatenate_pair_apply_right 0 x₁ x₂ h (ix2 (hi s) t) rfl rfl (ix2 s t)
    (fun b hb => match b, hb with | ⟨0, _⟩, hb => absurd rfl hb | ⟨1, _⟩, _ => rfl) (Nat.add_comm _ _)

/-- Two blocks of 512 columns side by side: a column of the first block. -/
theorem cat1_lo {R : Nat} (x₁ x₂ : (⟨2, ![R, 512]⟩ : Shape).Idx → α)
    (h : Shape.Concatenates [(⟨2, ![R, 512]⟩ : Shape), ⟨2, ![R, 512]⟩] ⟨2, ![R, 1024]⟩ 1) (p : Fin R) (s : Fin 512) :
    concatenate ⟨2, ![R, 1024]⟩ 1 [⟨_, x₁⟩, ⟨_, x₂⟩] h (ix2 p (lo s)) = x₁ (ix2 p s) :=
  concatenate_pair_apply_left 1 x₁ x₂ h (ix2 p (lo s)) rfl (ix2 p s) fun b => match b with | ⟨0, _⟩ => rfl | ⟨1, _⟩ => rfl

/-- Two blocks of 512 columns side by side: a column of the second block. -/
theorem cat1_hi {R : Nat} (x₁ x₂ : (⟨2, ![R, 512]⟩ : Shape).Idx → α)
    (h : Shape.Concatenates [(⟨2, ![R, 512]⟩ : Shape), ⟨2, ![R, 512]⟩] ⟨2, ![R, 1024]⟩ 1) (p : Fin R) (s : Fin 512) :
    concatenate ⟨2, ![R, 1024]⟩ 1 [⟨_, x₁⟩, ⟨_, x₂⟩] h (ix2 p (hi s)) = x₂ (ix2 p s) :=
  concatenate_pair_apply_right 1 x₁ x₂ h (ix2 p (hi s)) rfl rfl (ix2 p s)
    (fun b hb => match b, hb with | ⟨0, _⟩, _ => rfl | ⟨1, _⟩, hb => absurd rfl hb) (Nat.add_comm _ _)

/-- A column of 128 entries broadcast along rows reads the column's entry of that row. -/
theorem bcast_col {b : ℕ} (v : (⟨2, ![128, 1]⟩ : Shape).Idx → α) (h : (⟨2, ![128, 1]⟩ : Shape).Broadcasts ⟨2, ![128, b]⟩)
    (p : Fin 128) (c : Fin b) : broadcastTo ⟨2, ![128, b]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- A load of one of the two leading slabs of a rank-3 array reads that slab. -/
theorem ld_slab {Val : EltTy → Type} {e : EltTy} {n1 n2 : Nat} (X : (⟨3, ![2, n1, n2]⟩ : Shape).Idx → Val e) (o : Nat) (ho : o < 2)
    (inb : ∀ a, (![o, 0, 0] : Fin 3 → Nat) a + (⟨3, ![1, n1, n2]⟩ : Shape).size a ≤ (⟨3, ![2, n1, n2]⟩ : Shape).size a)
    (u : Fin 1) (i : Fin n1) (j : Fin n2) :
    View.ld X (Rect.unit ![o, 0, 0] (⟨3, ![1, n1, n2]⟩ : Shape).size inb) (ix3 u i j) = X (ix3 (⟨o, ho⟩ : Fin 2) i j) :=
  congrArg X (funext fun a => Fin.ext (match a with
    | ⟨0, _⟩ => (show o + 1 * u.val = o by have := u.isLt; omega)
    | ⟨1, _⟩ => (show 0 + 1 * i.val = i.val by omega)
    | ⟨2, _⟩ => (show 0 + 1 * j.val = j.val by omega)))

/-- A load of the leading rows of a matrix reads those rows. -/
theorem ld_rows {Val : EltTy → Type} {e : EltTy} {n0 n1 m0 : Nat} (X : (⟨2, ![n0, n1]⟩ : Shape).Idx → Val e)
    (inb : ∀ a, (![0, 0] : Fin 2 → Nat) a + (⟨2, ![m0, n1]⟩ : Shape).size a ≤ (⟨2, ![n0, n1]⟩ : Shape).size a)
    (i : Fin m0) (j : Fin n1) (hi : i.val < n0) :
    View.ld X (Rect.unit ![0, 0] (⟨2, ![m0, n1]⟩ : Shape).size inb) (ix2 i j) = X (ix2 (⟨i.val, hi⟩ : Fin n0) j) :=
  congrArg X (funext fun a => Fin.ext (match a with
    | ⟨0, _⟩ => (show 0 + 1 * i.val = i.val by omega)
    | ⟨1, _⟩ => (show 0 + 1 * j.val = j.val by omega)))

end Layout

/-! ## The edge mask, the in-degree and the normalisation -/

/-- One relation's block of the mask: the comparison's bit as the number 0 or 1. -/
theorem mask_elem (a : FVec Ideal ⟨2, ![512, 512]⟩ .f32) (h1 : 1 < 32) (h2 : FTy.bits .bf16 < FTy.bits .f32) (s t : Fin 512) :
    (truncf .bf16 (sitofp .f32 (extui 32 (cmpf .ogt a (broadcast ⟨2, ![512, 512]⟩ (Scalar.ofBits .f32 0x3F000000#32))) h1)) h2
        : FVec Ideal ⟨2, ![512, 512]⟩ .bf16) (ix2 s t)
      = bit01 (Ideal.cmp .ogt (a (ix2 s t)) (Ideal.ofBits .f32 0x3F000000#32)) :=
  bit_real _

section Graph
variable (M : Fin 2 → Fin 512 → Fin 512 → BitVec 1)

/-- The row of ones times the stacked mask is the in-degree. -/
theorem deg_apply (wf : DotDims.WF ⟨2, ![1, 1024]⟩ ⟨2, ![1024, 512]⟩ ⟨2, ![1, 512]⟩ [1] [0] [0] [1] [] [])
    (v14 : FVec Ideal ⟨2, ![1024, 512]⟩ .bf16)
    (h0 : ∀ s t, v14 (ix2 (lo s) t) = bit01 (M 0 s t)) (h1 : ∀ s t, v14 (ix2 (hi s) t) = bit01 (M 1 s t)) (t : Fin 512) :
    FloatOps.matmul (Cert.LibPlainDot.plainDot 1 1024 512 wf) none
        (broadcast ⟨2, ![1, 1024]⟩ (Scalar.ofBits .bf16 0x3F80#16) : FVec Ideal ⟨2, ![1, 1024]⟩ .bf16) v14
        (constant ⟨2, ![1, 512]⟩ .f32 0x00000000#32) (ix2 (0 : Fin 1) t) = deg M t := by
  rw [Cert.LibPlainDot.matmul_zero_apply, sum_1024]
  unfold deg
  rw [Fin.sum_univ_two]
  congr 1 <;> refine Finset.sum_congr rfl fun s _ => ?_
  · rw [h0]; show Ideal.ofBits .bf16 0x3F80#16 * _ = _; rw [Ideal.ofBits_one_bf16, one_mul]
  · rw [h1]; show Ideal.ofBits .bf16 0x3F80#16 * _ = _; rw [Ideal.ofBits_one_bf16, one_mul]

/-- The guarded inverse square root of the in-degree is the normalisation. -/
theorem nrm_apply (d : FVec Ideal ⟨2, ![1, 512]⟩ .f32) (hd : ∀ t, d (ix2 (0 : Fin 1) t) = deg M t) (t : Fin 512) :
    select (cmpf .ogt d (broadcast ⟨2, ![1, 512]⟩ (Scalar.ofBits .f32 0x00000000#32))) (rsqrt d)
        (broadcast ⟨2, ![1, 512]⟩ (Scalar.ofBits .f32 0x00000000#32)) (ix2 (0 : Fin 1) t) = nrm M t := by
  show Scalar.select (Ideal.cmp .ogt (d (ix2 (0 : Fin 1) t)) (Ideal.ofBits .f32 0x00000000#32)) (Ideal.rsqrt (d (ix2 (0 : Fin 1) t)))
    (Ideal.ofBits .f32 0x00000000#32) = _
  rw [hd, Ideal.ofBits_zero_f32]
  unfold nrm Ideal.cmp Scalar.select
  by_cases h : 0 < deg M t
  · simp [h]
  · simp [h]

end Graph

end Cert.KMask
end
-- ==== Proof.KLayer.lean ====
/-
  One layer of the computation in the kernel's transposed form, read at an index.

  The kernel keeps node features as a 128 x 512 array (feature, node). One layer is: the messages `Wᵀ (H * r_e)` of the two
  relations side by side (128 x 1024), each column scaled by its source's normalisation; their product with the stacked
  mask (a sum over relation and source); each column scaled by its target's normalisation; plus the self-loop term
  `Wlᵀ (H * lr)` and the bias; under the hyperbolic tangent. Read at feature `j` and node `n` this is the
  specification's `layer`. The relation embeddings' step is `Wrᵀ R`, the specification's `relStep`.
-/
import proofs.«113383_g81114752352452_cont_sun_c4_492_19_alg».proof.Proof.Spec
import proofs.«113383_g81114752352452_cont_sun_c4_492_19_alg».proof.Proof.LibPlainDot
import proofs.«113383_g81114752352452_cont_sun_c4_492_19_alg».proof.Proof.LibColDot
import proofs.«113383_g81114752352452_cont_sun_c4_492_19_alg».proof.Proof.KMask

noncomputable section
open scoped BigOperators
namespace Cert.KLayer
open Idealize.ShloMosaic Idealize.ShloMosaic.ValueIdx Cert.Spec Cert.KMask

/-- The hyperbolic tangent of an array at an index. -/
theorem tanh_apply {s : Shape} {φ : FTy} (a : FVec Ideal s φ) (i : s.Idx) : tanh a i = Ideal.tanh (a i) := rfl

section Layer
variable (M : Fin 2 → Fin 512 → Fin 512 → BitVec 1)

/-- ONE LAYER IN TRANSPOSED FORM, read at feature `j` and node `n`. The operands are the stacked mask (`v14`), the
    normalisation as a row (`v21`) and twice side by side (`v22`), the node features transposed (`H`), the two
    relation embeddings as columns (`r0`, `r1`), the three matrices, and the self-loop relation and the bias as
    columns: the messages `Wᵀ (H * r_e)` of both relations side by side, scaled by the source's normalisation,
    summed against the mask, scaled by the target's normalisation, plus the self-loop term and the bias, under the
    hyperbolic tangent. -/
theorem layerT_apply
    (wfA : DotDims.WF ⟨2, ![128, 128]⟩ ⟨2, ![128, 1024]⟩ ⟨2, ![128, 1024]⟩ [0] [0] [1] [1] [] [])
    (wfB : DotDims.WF ⟨2, ![128, 1024]⟩ ⟨2, ![1024, 512]⟩ ⟨2, ![128, 512]⟩ [1] [0] [0] [1] [] [])
    (wfC : DotDims.WF ⟨2, ![128, 128]⟩ ⟨2, ![128, 512]⟩ ⟨2, ![128, 512]⟩ [0] [0] [1] [1] [] [])
    (hb : (⟨2, ![128, 1]⟩ : Shape).Broadcasts ⟨2, ![128, 512]⟩)
    (hc : Shape.Concatenates [(⟨2, ![128, 512]⟩ : Shape), ⟨2, ![128, 512]⟩] ⟨2, ![128, 1024]⟩ 1)
    (hb22 : (⟨2, ![1, 1024]⟩ : Shape).Broadcasts ⟨2, ![128, 1024]⟩)
    (hb21 : (⟨2, ![1, 512]⟩ : Shape).Broadcasts ⟨2, ![128, 512]⟩)
    (ht : FTy.bits .bf16 < FTy.bits .f32)
    (v14 : FVec Ideal ⟨2, ![1024, 512]⟩ .bf16) (v21 : FVec Ideal ⟨2, ![1, 512]⟩ .f32) (v22 : FVec Ideal ⟨2, ![1, 1024]⟩ .f32)
    (H : FVec Ideal ⟨2, ![128, 512]⟩ .f32) (r0 r1 : FVec Ideal ⟨2, ![128, 1]⟩ .f32)
    (W Wl : FVec Ideal ⟨2, ![128, 128]⟩ .f32) (lcol bcol : FVec Ideal ⟨2, ![128, 1]⟩ .f32)
    (h : Fin 512 → Fin 128 → EReal) (r : Fin 2 → Fin 128 → EReal) (W' Wl' : Fin 128 → Fin 128 → EReal) (b lr : Fin 128 → EReal)
    (h0 : ∀ s t, v14 (ix2 (lo s) t) = bit01 (M 0 s t)) (h1 : ∀ s t, v14 (ix2 (hi s) t) = bit01 (M 1 s t))
    (hn : ∀ t, v21 (ix2 (0 : Fin 1) t) = nrm M t)
    (hnlo : ∀ s, v22 (ix2 (0 : Fin 1) (lo s)) = nrm M s) (hnhi : ∀ s, v22 (ix2 (0 : Fin 1) (hi s)) = nrm M s)
    (hH : ∀ k s, H (ix2 k s) = h s k)
    (hr0 : ∀ k, r0 (ix2 k (0 : Fin 1)) = r 0 k) (hr1 : ∀ k, r1 (ix2 k (0 : Fin 1)) = r 1 k)
    (hW : ∀ k j, W (ix2 k j) = W' k j) (hWl : ∀ k j, Wl (ix2 k j) = Wl' k j)
    (hl : ∀ k, lcol (ix2 k (0 : Fin 1)) = lr k) (hbias : ∀ j, bcol (ix2 j (0 : Fin 1)) = b j)
    (j : Fin 128) (n : Fin 512) :
    tanh (addf (addf (mulf (FloatOps.matmul (Cert.LibPlainDot.plainDot 128 1024 512 wfB) none
          (truncf .bf16 (mulf (FloatOps.matmul (Cert.LibColDot.colDot 128 128 1024 wfA) none W
              (concatenate ⟨2, ![128, 1024]⟩ 1 [⟨⟨2, ![128, 512]⟩, mulf H (broadcastTo ⟨2, ![128, 512]⟩ r0 hb)⟩,
                ⟨⟨2, ![128, 512]⟩, mulf H (broadcastTo ⟨2, ![128, 512]⟩ r1 hb)⟩] hc)
              (constant ⟨2, ![128, 1024]⟩ .f32 0x00000000#32)) (broadcastTo ⟨2, ![128, 1024]⟩ v22 hb22)) ht)
          v14 (constant ⟨2, ![128, 512]⟩ .f32 0x00000000#32)) (broadcastTo ⟨2, ![128, 512]⟩ v21 hb21))
        (FloatOps.matmul (Cert.LibColDot.colDot 128 128 512 wfC) none Wl (mulf H (broadcastTo ⟨2, ![128, 512]⟩ lcol hb))
          (constant ⟨2, ![128, 512]⟩ .f32 0x00000000#32)))
      (broadcastTo ⟨2, ![128, 512]⟩ bcol hb)) (ix2 j n)
      = layer M h r W' Wl' b lr n j := by
  unfold layer
  simp only [tanh_apply, addf_apply, mulf_apply]
  refine congrArg Ideal.tanh (congrArg₂ (· + ·) (congrArg₂ (· + ·) (congrArg₂ (· * ·) ?_ ?_) ?_) ?_)
  · rw [Cert.LibPlainDot.matmul_zero_apply, sum_1024, Fin.sum_univ_two]
    refine congrArg₂ (· + ·) (Finset.sum_congr rfl fun s _ => ?_) (Finset.sum_congr rfl fun s _ => ?_)
    · rw [h0]
      refine congrArg (· * bit01 (M 0 s n)) ?_
      show FloatOps.matmul _ _ _ _ _ (ix2 j (lo s)) * broadcastTo _ v22 hb22 (ix2 j (lo s)) = _
      rw [broadcastTo_1b_ab_apply, hnlo, Cert.LibColDot.matmul_zero_apply]
      refine congrArg (· * nrm M s) (Finset.sum_congr rfl fun k _ => ?_)
      rw [cat1_lo]
      show W (ix2 k j) * (H (ix2 k s) * broadcastTo _ r0 hb (ix2 k s)) = _
      rw [bcast_col, hW, hH, hr0]
    · rw [h1]
      refine congrArg (· * bit01 (M 1 s n)) ?_
      show FloatOps.matmul _ _ _ _ _ (ix2 j (hi s)) * broadcastTo _ v22 hb22 (ix2 j (hi s)) = _
      rw [broadcastTo_1b_ab_apply, hnhi, Cert.LibColDot.matmul_zero_apply]
      refine congrArg (· * nrm M s) (Finset.sum_congr rfl fun k _ => ?_)
      rw [cat1_hi]
      show W (ix2 k j) * (H (ix2 k s) * broadcastTo _ r1 hb (ix2 k s)) = _
      rw [bcast_col, hW, hH, hr1]
  · rw [broadcastTo_1b_ab_apply, hn]
  · rw [Cert.LibColDot.matmul_zero_apply]
    refine Finset.sum_congr rfl fun k _ => ?_
    show Wl (ix2 k j) * (H (ix2 k n) * broadcastTo _ lcol hb (ix2 k n)) = _
    rw [bcast_col, hWl, hH, hl]
  · rw [bcast_col, hbias]

end Layer

/-- The relation embeddings' step `Wrᵀ r` in transposed form, read at feature `k'` and relation `e`. -/
theorem relStepT_apply (wf : DotDims.WF ⟨2, ![128, 128]⟩ ⟨2, ![128, 2]⟩ ⟨2, ![128, 2]⟩ [0] [0] [1] [1] [] [])
    (Wr : FVec Ideal ⟨2, ![128, 128]⟩ .f32) (R : FVec Ideal ⟨2, ![128, 2]⟩ .f32)
    (r : Fin 2 → Fin 128 → EReal) (Wr' : Fin 128 → Fin 128 → EReal)
    (hWr : ∀ k j, Wr (ix2 k j) = Wr' k j) (hR : ∀ k e, R (ix2 k e) = r e k) (k' : Fin 128) (e : Fin 2) :
    FloatOps.matmul (Cert.LibColDot.colDot 128 128 2 wf) none Wr R (constant ⟨2, ![128, 2]⟩ .f32 0x00000000#32) (ix2 k' e)
      = relStep r Wr' e k' := by
  rw [Cert.LibColDot.matmul_zero_apply]
  unfold relStep
  exact Finset.sum_congr rfl fun k _ => by rw [hWr, hR]

end Cert.KLayer
end
-- ==== Proof.KOut.lean ====
/-
  The kernel's value: what the body leaves in the output's buffer is the two-layer computation of the input blocks.

  Each value the body computes before the layers is read at an index in terms of the input blocks (the stacked mask,
  the normalisation, the transposed features, relations, biases and self-loop relations); the first layer's output is
  then the specification's `layer` of the inputs, and the stored array, the transpose of the second layer's output, is
  the specification's `out`.
-/
import proofs.«113383_g81114752352452_cont_sun_c4_492_19_alg».proof.Proof.Gen.KernelIdeal.Frame
import proofs.«113383_g81114752352452_cont_sun_c4_492_19_alg».proof.Proof.Spec
import proofs.«113383_g81114752352452_cont_sun_c4_492_19_alg».proof.Proof.LibPlainDot
import proofs.«113383_g81114752352452_cont_sun_c4_492_19_alg».proof.Proof.LibColDot
import proofs.«113383_g81114752352452_cont_sun_c4_492_19_alg».proof.Proof.KMask
import proofs.«113383_g81114752352452_cont_sun_c4_492_19_alg».proof.Proof.KLayer

noncomputable section
open scoped BigOperators
namespace Cert.KOut
open Idealize.ShloMosaic Idealize.ShloMosaic.ValueIdx Cert.Spec Cert.KMask Cert.KLayer Cert.KernelIdeal Cert.KernelIdeal.Gen

section
variable (x0 : Vec Ideal S2x512x512 .f32) (x1 : Vec Ideal S512x128 .f32) (x2 : Vec Ideal S4x128 .f32)
  (x3 x4 x5 : Vec Ideal S2x128x128 .f32) (x6 : Vec Ideal S2x128 .f32) (x7 : Vec Ideal S2x1x128 .f32)

/-- The stacked mask, relation 0: the edge bit as a number. -/
theorem pay2_lo (s t : Fin 512) :
    k0_pay2 (F := Ideal) (View.ld x0 r0_0) (View.ld x0 r0_1) (ix2 (lo s) t) = bit01 (maskOf x0 0 s t) := by
  unfold k0_pay2
  refine (cat0_lo _ _ _ s t).trans ?_
  refine (mask_elem _ _ _ s t).trans ?_
  unfold maskOf
  refine congrArg (fun z => bit01 (Ideal.cmp .ogt z (Ideal.ofBits .f32 0x3F000000#32))) ?_
  refine (shapeCast_1ab_ab_apply _ _ s t).trans ?_
  exact ld_slab x0 0 (by decide) _ 0 s t

/-- The stacked mask, relation 1. -/
theorem pay2_hi (s t : Fin 512) :
    k0_pay2 (F := Ideal) (View.ld x0 r0_0) (View.ld x0 r0_1) (ix2 (hi s) t) = bit01 (maskOf x0 1 s t) := by
  unfold k0_pay2
  refine (cat0_hi _ _ _ s t).trans ?_
  refine (mask_elem _ _ _ s t).trans ?_
  unfold maskOf
  refine congrArg (fun z => bit01 (Ideal.cmp .ogt z (Ideal.ofBits .f32 0x3F000000#32))) ?_
  refine (shapeCast_1ab_ab_apply _ _ s t).trans ?_
  exact ld_slab x0 1 (by decide) _ 0 s t

/-- The normalisation row. -/
theorem pay3_apply (t : Fin 512) :
    k0_pay3 (F := Ideal) (View.ld x0 r0_0) (View.ld x0 r0_1) (ix2 (0 : Fin 1) t) = nrm (maskOf x0) t := by
  unfold k0_pay3
  exact nrm_apply (maskOf x0) _ (fun t => deg_apply (maskOf x0) _ _ (pay2_lo x0) (pay2_hi x0) t) t

/-- The normalisation twice side by side: the first copy. -/
theorem pay4_lo (s : Fin 512) :
    k0_pay4 (F := Ideal) (View.ld x0 r0_0) (View.ld x0 r0_1) (ix2 (0 : Fin 1) (lo s)) = nrm (maskOf x0) s := by
  unfold k0_pay4
  exact (cat1_lo _ _ _ 0 s).trans (pay3_apply x0 s)

/-- The normalisation twice side by side: the second copy. -/
theorem pay4_hi (s : Fin 512) :
    k0_pay4 (F := Ideal) (View.ld x0 r0_0) (View.ld x0 r0_1) (ix2 (0 : Fin 1) (hi s)) = nrm (maskOf x0) s := by
  unfold k0_pay4
  exact (cat1_hi _ _ _ 0 s).trans (pay3_apply x0 s)

/-- The node features transposed. -/
theorem pay5_apply (k : Fin 128) (s : Fin 512) : k0_pay5 (F := Ideal) (View.ld x1 r0_2) (ix2 k s) = x1 (ix2 s k) := by
  unfold k0_pay5
  exact (transpose_ix2_apply _ _ k s).trans (ld_rows x1 _ s k s.isLt)

/-- The two forward relations transposed. -/
theorem pay6_apply (k : Fin 128) (e : Fin 2) (he : e.val < 4) :
    k0_pay6 (F := Ideal) (View.ld x2 r0_3) (ix2 k e) = x2 (ix2 (⟨e.val, he⟩ : Fin 4) k) := by
  unfold k0_pay6
  exact (transpose_ix2_apply _ _ k e).trans (ld_rows x2 _ e k he)

/-- The first forward relation as a column. -/
theorem pay9_apply (k : Fin 128) (he : (0 : Fin 2).val < 4) :
    k0_pay9 (F := Ideal) (View.ld x2 r0_3) (ix2 k (0 : Fin 1)) = x2 (ix2 (⟨(0 : Fin 2).val, he⟩ : Fin 4) k) := by
  unfold k0_pay9
  exact (slice2_axis1_apply 0 _ _ k 0 0 rfl).trans (pay6_apply x2 k 0 he)

/-- The biases transposed. -/
theorem pay7_apply (j : Fin 128) (l : Fin 2) : k0_pay7 (F := Ideal) (View.ld x6 r0_4) (ix2 j l) = x6 (ix2 l j) := by
  unfold k0_pay7
  exact (transpose_ix2_apply _ _ j l).trans (ld_rows x6 _ l j l.isLt)

/-- The self-loop relations transposed: layer 0. -/
theorem pay8_0 (k : Fin 128) :
    k0_pay8 (F := Ideal) (View.ld x7 r0_5) (View.ld x7 r0_6) (ix2 k (0 : Fin 2)) = x7 (ix3 (0 : Fin 2) (0 : Fin 1) k) := by
  unfold k0_pay8
  refine (transpose_ix2_apply _ _ k 0).trans ?_
  refine (concatenate_pair_apply_left (s₁ := S1x128) (s₂ := S1x128) 0 _ _ _ (ix2 (0 : Fin 2) k) rfl (ix2 (0 : Fin 1) k)
    (fun b => match b with | ⟨0, _⟩ => rfl | ⟨1, _⟩ => rfl)).trans ?_
  refine (shapeCast_1ab_ab_apply _ _ 0 k).trans ?_
  exact ld_slab x7 0 (by decide) _ 0 0 k

/-- The self-loop relations transposed: layer 1. -/
theorem pay8_1 (k : Fin 128) :
    k0_pay8 (F := Ideal) (View.ld x7 r0_5) (View.ld x7 r0_6) (ix2 k (1 : Fin 2)) = x7 (ix3 (1 : Fin 2) (0 : Fin 1) k) := by
  unfold k0_pay8
  refine (transpose_ix2_apply _ _ k 1).trans ?_
  refine (concatenate_pair_apply_right (s₁ := S1x128) (s₂ := S1x128) 0 _ _ _ (ix2 (1 : Fin 2) k) rfl rfl (ix2 (0 : Fin 1) k)
    (fun b hb => match b, hb with | ⟨0, _⟩, hb => absurd rfl hb | ⟨1, _⟩, _ => rfl) rfl).trans ?_
  refine (shapeCast_1ab_ab_apply _ _ 0 k).trans ?_
  exact ld_slab x7 1 (by decide) _ 0 0 k

/-- The first layer's node features. -/
abbrev h1 : Fin 512 → Fin 128 → EReal :=
  layer (maskOf x0) (fun s k => x1 (ix2 s k)) (fun e k => x2 (ix2 (⟨e.val, by omega⟩ : Fin 4) k))
    (fun k j => x3 (ix3 (0 : Fin 2) k j)) (fun k j => x4 (ix3 (0 : Fin 2) k j))
    (fun j => x6 (ix2 (0 : Fin 2) j)) (fun k => x7 (ix3 (0 : Fin 2) (0 : Fin 1) k))

/-- THE FIRST LAYER in transposed form, read at feature `j` and node `n`. -/
theorem pay10_apply (j : Fin 128) (n : Fin 512) :
    k0_pay10 (F := Ideal) (k0_pay2 (View.ld x0 r0_0) (View.ld x0 r0_1)) (k0_pay3 (View.ld x0 r0_0) (View.ld x0 r0_1))
        (k0_pay4 (View.ld x0 r0_0) (View.ld x0 r0_1)) (k0_pay5 (View.ld x1 r0_2)) (k0_pay6 (View.ld x2 r0_3))
        (k0_pay7 (View.ld x6 r0_4)) (k0_pay8 (View.ld x7 r0_5) (View.ld x7 r0_6)) (k0_pay9 (View.ld x2 r0_3))
        (View.ld x3 r0_7) (View.ld x4 r0_7) (ix2 j n)
      = h1 x0 x1 x2 x3 x4 x6 x7 n j := by
  unfold k0_pay10
  refine layerT_apply (M := maskOf x0) (h0 := ?_) (h1 := ?_) (hn := ?_) (hnlo := ?_) (hnhi := ?_) (hH := ?_)
    (hr0 := ?_) (hr1 := ?_) (hW := ?_) (hWl := ?_) (hl := ?_) (hbias := ?_) (j := j) (n := n) ..
  · exact pay2_lo x0
  · exact pay2_hi x0
  · exact pay3_apply x0
  · exact pay4_lo x0
  · exact pay4_hi x0
  · exact pay5_apply x1
  · exact fun k => pay9_apply x2 k _
  · exact fun k => (slice2_axis1_apply 1 _ _ k 0 1 rfl).trans (pay6_apply x2 k 1 _)
  · exact fun k j => (shapeCast_1ab_ab_apply _ _ k j).trans (ld_slab x3 0 (by decide) _ 0 k j)
  · exact fun k j => (shapeCast_1ab_ab_apply _ _ k j).trans (ld_slab x4 0 (by decide) _ 0 k j)
  · exact fun k => (slice2_axis1_apply 0 _ _ k 0 0 rfl).trans (pay8_0 x7 k)
  · exact fun j => (slice2_axis1_apply 0 _ _ j 0 0 rfl).trans (pay7_apply x6 j 0)

/-- The zero offsets of a whole-array access. -/
theorem hz : (![0, 0] : Fin 2 → Nat) = fun _ => 0 := funext fun a => match a with | ⟨0, _⟩ => rfl | ⟨1, _⟩ => rfl

/-- THE KERNEL'S VALUE: what the body leaves in the output's buffer, read at node `n` and feature `j`, is the two-layer
    computation of the input blocks. -/
theorem kernel_out (n : Fin 512) (j : Fin 128) :
    out0_8 x0 x1 x2 x3 x4 x5 x6 x7 (ix2 n j) = Cert.Spec.out x1 x0 x2 x3 x4 x5 x6 x7 n j := by
  unfold out0_8
  refine (congrFun (View.canon_unit_zero hz _ _) (ix2 n j)).trans ?_
  unfold k0_pay1
  refine (transpose_ix2_apply _ _ n j).trans ?_
  unfold k0_pay11
  unfold Cert.Spec.out
  refine layerT_apply (M := maskOf x0) (h0 := ?_) (h1 := ?_) (hn := ?_) (hnlo := ?_) (hnhi := ?_) (hH := ?_)
    (hr0 := ?_) (hr1 := ?_) (hW := ?_) (hWl := ?_) (hl := ?_) (hbias := ?_) (j := j) (n := n) ..
  · exact pay2_lo x0
  · exact pay2_hi x0
  · exact pay3_apply x0
  · exact pay4_lo x0
  · exact pay4_hi x0
  · exact fun k s => pay10_apply x0 x1 x2 x3 x4 x6 x7 k s
  · exact fun k => (slice2_axis1_apply 0 _ _ k 0 0 rfl).trans (relStepT_apply _ _ _ _ _
      (fun k j => (shapeCast_1ab_ab_apply _ _ k j).trans (ld_slab x5 0 (by decide) _ 0 k j))
      (fun k e => pay6_apply x2 k e _) k 0)
  · exact fun k => (slice2_axis1_apply 1 _ _ k 0 1 rfl).trans (relStepT_apply _ _ _ _ _
      (fun k j => (shapeCast_1ab_ab_apply _ _ k j).trans (ld_slab x5 0 (by decide) _ 0 k j))
      (fun k e => pay6_apply x2 k e _) k 1)
  · exact fun k j => (shapeCast_1ab_ab_apply _ _ k j).trans (ld_slab x3 1 (by decide) _ 0 k j)
  · exact fun k j => (shapeCast_1ab_ab_apply _ _ k j).trans (ld_slab x4 1 (by decide) _ 0 k j)
  · exact fun k => (slice2_axis1_apply 1 _ _ k 0 1 rfl).trans (pay8_1 x7 k)
  · exact fun j => (slice2_axis1_apply 1 _ _ j 0 1 rfl).trans (pay7_apply x6 j 1)

end
end Cert.KOut
end
-- ==== Proof.KRun.lean ====
/-
  The kernel's run, read: the output array after the run is the two-layer computation of the argument arrays.

  The kernel has one grid point and every window is its whole array at block index 0. So each input block is its
  argument array, what the point leaves in the output's buffer is the specification's `out` of the argument arrays
  (the kernel's value), the one write-back writes the whole output array, and its block covers the array.
-/
import proofs.«113383_g81114752352452_cont_sun_c4_492_19_alg».proof.Proof.Gen.KernelIdeal.Value
import proofs.«113383_g81114752352452_cont_sun_c4_492_19_alg».proof.Proof.Spec
import proofs.«113383_g81114752352452_cont_sun_c4_492_19_alg».proof.Proof.KOut
import Idealize.ShloMosaic.Lib.Pipeline.Value
import Idealize.ShloMosaic.Lib.ValueIdx

noncomputable section
namespace Cert.KRun
open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array: the two-layer computation of the argument arrays, index by index. -/
abbrev result (c : Dev nD) : Buf (Elt Ideal) ((c : Thread nD τ).loc main_v0) := fun i =>
  Cert.Spec.out (m ((c : Thread nD τ).loc main_arg0) : S512x128.Idx → Elt Ideal .f32)
    (m ((c : Thread nD τ).loc main_arg1) : S2x512x512.Idx → Elt Ideal .f32)
    (m ((c : Thread nD τ).loc main_arg2) : S4x128.Idx → Elt Ideal .f32)
    (m ((c : Thread nD τ).loc main_arg3) : S2x128x128.Idx → Elt Ideal .f32)
    (m ((c : Thread nD τ).loc main_arg4) : S2x128x128.Idx → Elt Ideal .f32)
    (m ((c : Thread nD τ).loc main_arg5) : S2x128x128.Idx → Elt Ideal .f32)
    (m ((c : Thread nD τ).loc main_arg6) : S2x128.Idx → Elt Ideal .f32)
    (m ((c : Thread nD τ).loc main_arg7) : S2x1x128.Idx → Elt Ideal .f32) (i 0) (i 1)

/-! Each input window's one block is its whole argument array: the window is the array, at block index 0. -/

theorem iblk0_eq (c : Dev nD) (t : Fin cfg0.N) :
    (iblk m c 0 t : Vec Ideal S2x512x512 .f32) = (m ((c : Thread nD τ).loc main_arg1) : S2x512x512.Idx → Elt Ideal .f32) := by
  have hz' : (fun a => win0_0.index t a * main_arg1.ty.shape.size a) = fun _ => 0 := funext fun a => Nat.zero_mul _
  exact Memref.read_access_unit_zero (Elt Ideal) main_arg1 hz' (fun a => by rw [congrFun hz' a]; simp) _

theorem iblk1_eq (c : Dev nD) (t : Fin cfg0.N) :
    (iblk m c 1 t : Vec Ideal S512x128 .f32) = (m ((c : Thread nD τ).loc main_arg0) : S512x128.Idx → Elt Ideal .f32) := by
  have hz' : (fun a => win0_1.index t a * main_arg0.ty.shape.size a) = fun _ => 0 := funext fun a => Nat.zero_mul _
  exact Memref.read_access_unit_zero (Elt Ideal) main_arg0 hz' (fun a => by rw [congrFun hz' a]; simp) _

theorem iblk2_eq (c : Dev nD) (t : Fin cfg0.N) :
    (iblk m c 2 t : Vec Ideal S4x128 .f32) = (m ((c : Thread nD τ).loc main_arg2) : S4x128.Idx → Elt Ideal .f32) := by
  have hz' : (fun a => win0_2.index t a * main_arg2.ty.shape.size a) = fun _ => 0 := funext fun a => Nat.zero_mul _
  exact Memref.read_access_unit_zero (Elt Ideal) main_arg2 hz' (fun a => by rw [congrFun hz' a]; simp) _

theorem iblk3_eq (c : Dev nD) (t : Fin cfg0.N) :
    (iblk m c 3 t : Vec Ideal S2x128x128 .f32) = (m ((c : Thread nD τ).loc main_arg3) : S2x128x128.Idx → Elt Ideal .f32) := by
  have hz' : (fun a => win0_3.index t a * main_arg3.ty.shape.size a) = fun _ => 0 := funext fun a => Nat.zero_mul _
  exact Memref.read_access_unit_zero (Elt Ideal) main_arg3 hz' (fun a => by rw [congrFun hz' a]; simp) _

theorem iblk4_eq (c : Dev nD) (t : Fin cfg0.N) :
    (iblk m c 4 t : Vec Ideal S2x128x128 .f32) = (m ((c : Thread nD τ).loc main_arg4) : S2x128x128.Idx → Elt Ideal .f32) := by
  have hz' : (fun a => win0_4.index t a * main_arg4.ty.shape.size a) = fun _ => 0 := funext fun a => Nat.zero_mul _
  exact Memref.read_access_unit_zero (Elt Ideal) main_arg4 hz' (fun a => by rw [congrFun hz' a]; simp) _

theorem iblk5_eq (c : Dev nD) (t : Fin cfg0.N) :
    (iblk m c 5 t : Vec Ideal S2x128x128 .f32) = (m ((c : Thread nD τ).loc main_arg5) : S2x128x128.Idx → Elt Ideal .f32) := by
  have hz' : (fun a => win0_5.index t a * main_arg5.ty.shape.size a) = fun _ => 0 := funext fun a => Nat.zero_mul _
  exact Memref.read_access_unit_zero (Elt Ideal) main_arg5 hz' (fun a => by rw [congrFun hz' a]; simp) _

theorem iblk6_eq (c : Dev nD) (t : Fin cfg0.N) :
    (iblk m c 6 t : Vec Ideal S2x128 .f32) = (m ((c : Thread nD τ).loc main_arg6) : S2x128.Idx → Elt Ideal .f32) := by
  have hz' : (fun a => win0_6.index t a * main_arg6.ty.shape.size a) = fun _ => 0 := funext fun a => Nat.zero_mul _
  exact Memref.read_access_unit_zero (Elt Ideal) main_arg6 hz' (fun a => by rw [congrFun hz' a]; simp) _

theorem iblk7_eq (c : Dev nD) (t : Fin cfg0.N) :
    (iblk m c 7 t : Vec Ideal S2x1x128 .f32) = (m ((c : Thread nD τ).loc main_arg7) : S2x1x128.Idx → Elt Ideal .f32) := by
  have hz' : (fun a => win0_7.index t a * main_arg7.ty.shape.size a) = fun _ => 0 := funext fun a => Nat.zero_mul _
  exact Memref.read_access_unit_zero (Elt Ideal) main_arg7 hz' (fun a => by rw [congrFun hz' a]; simp) _

/-- What the one point leaves in the output's buffer is the result array. -/
theorem out_eq (c : Dev nD) (t : Fin cfg0.N) :
    out0_8 (iblk m c 0 t) (iblk m c 1 t) (iblk m c 2 t) (iblk m c 3 t) (iblk m c 4 t) (iblk m c 5 t) (iblk m c 6 t) (iblk m c 7 t)
      = result m c := by
  funext i
  obtain ⟨n, j, rfl⟩ : ∃ (n : Fin 512) (j : Fin 128), i = ix2 n j := ⟨i 0, i 1, eq_ix2 i⟩
  refine (Cert.KOut.kernel_out (iblk m c 0 t) (iblk m c 1 t) (iblk m c 2 t) (iblk m c 3 t) (iblk m c 4 t) (iblk m c 5 t)
    (iblk m c 6 t) (iblk m c 7 t) n j).trans ?_
  rw [iblk0_eq, iblk1_eq, iblk2_eq, iblk3_eq, iblk4_eq, iblk5_eq, iblk6_eq, iblk7_eq]
  rfl

/-- WHAT THE ONE POINT WRITES BACK is the whole result array: the output's window is the array, at block index 0. -/
theorem flushed_eq (c : Dev nD) (t : Fin cfg0.N) :
    (dats m 0 c).flushed 8 t = ((cfg0.win 8).blk t).view.read (Elt Ideal) (result m c) := by
  rw [flushed8, out_eq]
  have hz' : (fun a => win0_8.index t a * main_v0.ty.shape.size a) = fun _ => 0 := funext fun a => Nat.zero_mul _
  exact (Memref.read_access_unit_zero (Elt Ideal) main_v0 hz' (fun a => by rw [congrFun hz' a]; simp) (result m c)).symm

/-- So the output array ends holding the result: the one point's block covers it. -/
theorem final (c : Dev nD) : (dats m 0 c).arrAt 8 cfg0.N = result m c :=
  (dats m 0 c).arrAt_eq_of_cover 8 (result m c) (fun t _ => flushed_eq m c t) fun i =>
    ⟨t0_0, flush0_8 t0_0, by
      show i ∈ ((View.whole main_v0).slice (win0_8.rect t0_0)).set
      rw [View.set_slice_whole, Rect.mem_set_unit]
      intro a
      have h0 : (i 0 : Nat) < 512 := (i 0).isLt
      have h1 : (i 1 : Nat) < 128 := (i 1).isLt
      match a with
      | ⟨0, _⟩ => exact ⟨by show 0 * 512 ≤ (i 0 : Nat); omega, by show (i 0 : Nat) < 0 * 512 + 512; omega⟩
      | ⟨1, _⟩ => exact ⟨by show 0 * 128 ≤ (i 1 : Nat); omega, by show (i 1 : Nat) < 0 * 128 + 128; omega⟩⟩

/-- THE RUN, READ: every weakly fair execution of the program terminates with the output array at the two-layer
    computation of the argument arrays and the eight arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (run_blocks m ρ)

end Cert.KRun
end
-- ==== Proof.LibColumns.lean ====
/-
  Rows and columns: two facts about arrays whose columns are laid side by side.

  All arrays are rank 2. An update array of `E` rows is scattered into an array of `N` rows by a column `I` of
  row indices (one signed integer per update row, `I (e, 0)`): update element `(e, g)` is added at `(I e, g)`,
  and dropped when `I e` is not a row of the target. A gather reads the other way: result element `(e, g)` is
  the operand at `(J e, g)`, with `J e` brought into `[0, N − 1]`. Both act on each column on its own. Hence:

  * scattering (with addition, on the extended reals) two arrays laid side by side and then cutting the result
    back into its two column ranges gives the two scatters of the two arrays;
  * gathering rows of two arrays laid side by side and then cutting gives the two gathers.

  The dimension numbers are the records `rowScatter` and `rowGather` below, whose side conditions are a
  parameter: any record with the same lists is one of them by `rfl`.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx
import Idealize.ShloMosaic.Lib.Pipeline.Value

noncomputable section

open scoped BigOperators

namespace Cert.LibColumns

open Idealize.ShloMosaic Idealize.ShloMosaic.ValueIdx

/-! ## Scattering rows -/

/-- The dimension numbers of a row scatter: updates `[E, C]` go into an operand `[N, C]` at the rows named by
    scatter indices `[E, 1]` — the updates' axis 1 is the window axis, the operand's axis 0 is inserted and is the
    one the index names, the index vector lies along axis 1 of the indices. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (I : IVec ⟨2, ![E, 1]⟩ w)

/-- On the row axis the window of update `(e, g)` starts at the signed value of the index `I (e, 0)`. -/
theorem rowScatter_start_row (e : Fin E) (g : Fin C) :
    (rowScatter N E C wf).start (ix2 e g) I 0 = (I (ix2 e (0 : Fin 1))).toInt := by
  unfold ScatterDims.start
  rw [dif_pos (show (0 : Fin 2) ∈ (rowScatter N E C wf).scatterDimsToOperandDims from List.mem_singleton.mpr rfl)]
  congr 2
  funext b
  refine Fin.ext ?_
  match b with
  | ⟨0, _⟩ => rfl
  | ⟨1, _⟩ => rfl

/-- On the column axis every window starts at 0. -/
theorem rowScatter_start_col (e : Fin E) (g : Fin C) :
    (rowScatter N E C wf).start (ix2 e g) I 1 = 0 := by
  unfold ScatterDims.start
  rw [dif_neg (show (1 : Fin 2) ∉ ([0] : List (Fin 2)) by simp)]

/-- The row axis is inserted: the window coordinate there is 0. -/
theorem rowScatter_window_row (e : Fin E) (g : Fin C) :
    (rowScatter N E C wf).window (ix2 e g) 0 = 0 := by
  unfold ScatterDims.window
  rw [dif_neg (show (0 : Fin 2) ∉ Shape.kept ⟨2, ![N, C]⟩ [0] by simp [Shape.kept])]

/-- On the column axis the window coordinate of update `(e, g)` is `g`. -/
theorem rowScatter_window_col (e : Fin E) (g : Fin C) :
    (rowScatter N E C wf).window (ix2 e g) 1 = g.val := by
  unfold ScatterDims.window
  rw [dif_pos (show (1 : Fin 2) ∈ Shape.kept ⟨2, ![N, C]⟩ [0] by simp [Shape.kept])]
  rfl

/-- Update `(e, g)` lands on `(n, f)` exactly when its index is `n` and `g = f`. -/
theorem rowScatter_resultIdx?_eq_some_iff (e : Fin E) (g : Fin C) (n : Fin N) (f : Fin C) :
    (rowScatter N E C wf).resultIdx? (ix2 e g) I = some (ix2 n f)
      ↔ (I (ix2 e (0 : Fin 1))).toInt = (n.val : Int) ∧ g = f := by
  have hs0 := rowScatter_start_row wf I e g
  have hs1 := rowScatter_start_col wf I e g
  have hw0 := rowScatter_window_row wf e g
  have hw1 := rowScatter_window_col wf e g
  unfold ScatterDims.resultIdx?
  by_cases h : ∀ a : Fin 2, 0 ≤ (rowScatter N E C wf).start (ix2 e g) I a + ((rowScatter N E C wf).window (ix2 e g) a : Int)
      ∧ (rowScatter N E C wf).start (ix2 e g) I a + ((rowScatter N E C wf).window (ix2 e g) a : Int)
        < ((⟨2, ![N, C]⟩ : Shape).size a : Int)
  · rw [dif_pos h]
    have h0 := h 0
    rw [hs0, hw0] at h0
    constructor
    · intro hh
      have hh' := Option.some.inj hh
      have e0 := congrArg (fun k => (k 0).val) hh'
      have e1 := congrArg (fun k => (k 1).val) hh'
      simp only [hs0, hw0, hs1, hw1] at e0 e1
      refine ⟨?_, Fin.ext ?_⟩
      · have : ((I (ix2 e (0 : Fin 1))).toInt + ((0 : Nat) : Int)).toNat = n.val := e0
        omega
      · have : ((0 : Int) + (g.val : Int)).toNat = f.val := e1
        omega
    · rintro ⟨ht, rfl⟩
      congr 1
      funext a
      refine Fin.ext ?_
      match a with
      | ⟨0, _⟩ =>
        show ((rowScatter N E C wf).start (ix2 e g) I 0 + ((rowScatter N E C wf).window (ix2 e g) 0 : Int)).toNat = n.val
        rw [hs0, hw0]; omega
      | ⟨1, _⟩ =>
        show ((rowScatter N E C wf).start (ix2 e g) I 1 + ((rowScatter N E C wf).window (ix2 e g) 1 : Int)).toNat = g.val
        rw [hs1, hw1]; omega
  · rw [dif_neg h]
    constructor
    · intro hh; exact absurd hh (by simp)
    · rintro ⟨ht, rfl⟩
      exfalso
      apply h
      intro a
      match a with
      | ⟨0, _⟩ =>
        show 0 ≤ (rowScatter N E C wf).start (ix2 e g) I 0 + ((rowScatter N E C wf).window (ix2 e g) 0 : Int)
          ∧ (rowScatter N E C wf).start (ix2 e g) I 0 + ((rowScatter N E C wf).window (ix2 e g) 0 : Int) < (N : Int)
        rw [hs0, hw0]; have := n.isLt; omega
      | ⟨1, _⟩ =>
        show 0 ≤ (rowScatter N E C wf).start (ix2 e g) I 1 + ((rowScatter N E C wf).window (ix2 e g) 1 : Int)
          ∧ (rowScatter N E C wf).start (ix2 e g) I 1 + ((rowScatter N E C wf).window (ix2 e g) 1 : Int) < (C : Int)
        rw [hs1, hw1]; have := g.isLt; omega

/-- THE ROW SCATTER-ADD AT `(n, f)`: the operand's element plus the sum, over the update rows `e` whose index is
    `n`, of the update's element `(e, f)`. -/
theorem hostScatterAdd_rows_apply (X : (⟨2, ![N, C]⟩ : Shape).Idx → EReal) (U : (⟨2, ![E, C]⟩ : Shape).Idx → EReal)
    (n : Fin N) (f : Fin C) :
    Ideal.hostScatterAdd (rowScatter N E C wf) X I U (ix2 n f)
      = X (ix2 n f) + ∑ e : Fin E, if (I (ix2 e (0 : Fin 1))).toInt = (n.val : Int) then U (ix2 e f) else 0 := by
  unfold Ideal.hostScatterAdd
  congr 1
  rw [Finset.sum_filter, sum_idx2]
  refine Finset.sum_congr rfl fun e _ => ?_
  simp only [rowScatter_resultIdx?_eq_some_iff]
  by_cases ht : (I (ix2 e (0 : Fin 1))).toInt = (n.val : Int)
  · simp [ht]
  · simp [ht]

/-- The same for the host operation at the ideal instance, at any float format. -/
theorem scatterAdd_rows_apply {φ : FTy} (X : FVec Ideal ⟨2, ![N, C]⟩ φ) (U : FVec Ideal ⟨2, ![E, C]⟩ φ)
    (n : Fin N) (f : Fin C) :
    Host.scatterAdd (rowScatter N E C wf) X I U (ix2 n f)
      = X (ix2 n f) + ∑ e : Fin E, if (I (ix2 e (0 : Fin 1))).toInt = (n.val : Int) then U (ix2 e f) else 0 :=
  hostScatterAdd_rows_apply wf I X U n f

end Scatter

/-! ## A scatter-add of two arrays side by side, cut back into its column ranges -/

section ScatterColumns
variable {N E C D T w : Nat} {φ : FTy}

/-- The first `C` columns of the scatter-add of `[A | B]` (columns `C` and `D` wide) into `X` are the scatter-add
    of `A` into the first `C` columns of `X`: the sum for `(n, f)`, `f < C`, runs over the update rows whose
    index is `n` and reads column `f` of `[A | B]`, which is column `f` of `A`. -/
theorem slice_scatterAdd_concat_left
    (wfT : ScatterDims.WF ⟨2, ![N, T]⟩ ⟨2, ![E, 1]⟩ ⟨2, ![E, T]⟩ [1] [0] [0] 1)
    (wfC : ScatterDims.WF ⟨2, ![N, C]⟩ ⟨2, ![E, 1]⟩ ⟨2, ![E, C]⟩ [1] [0] [0] 1)
    (hc : Shape.Concatenates [(⟨2, ![E, C]⟩ : Shape), ⟨2, ![E, D]⟩] ⟨2, ![E, T]⟩ 1)
    (hs : (⟨2, ![N, T]⟩ : Shape).Slices ![0, 0] ⟨2, ![N, C]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, C]⟩ ![0, 0]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E C wfC) (extractStridedSlice ⟨2, ![N, C]⟩ ![0, 0] X hs) I A := by
  funext i
  obtain ⟨n, f, rfl⟩ : ∃ (n : Fin N) (f : Fin C), i = ix2 n f := ⟨i 0, i 1, eq_ix2 i⟩
  have hCT : C ≤ T := by have := hs.2 1; simpa using this
  have hf : f.val < T := lt_of_lt_of_le f.isLt hCT
  have hk : ∀ a : Fin 2, ((ix2 n (⟨f.val, hf⟩ : Fin T) : (⟨2, ![N, T]⟩ : Shape).Idx) a).val
      = (![0, 0] : Fin 2 → Nat) a + ((ix2 n f : (⟨2, ![N, C]⟩ : Shape).Idx) (a.cast hs.1.symm)).val := fun a => by
    match a with
    | ⟨0, _⟩ => exact (Nat.zero_add _).symm
    | ⟨1, _⟩ => exact (Nat.zero_add _).symm
  rw [extractStridedSlice_apply ![0, 0] _ hs (ix2 n f) (ix2 n (⟨f.val, hf⟩ : Fin T)) hk,
    scatterAdd_rows_apply, scatterAdd_rows_apply,
    extractStridedSlice_apply ![0, 0] X hs (ix2 n f) (ix2 n (⟨f.val, hf⟩ : Fin T)) hk]
  congr 1
  refine Finset.sum_congr rfl fun e _ => ?_
  rw [concatenate_pair_apply_left (t := ⟨2, ![E, T]⟩) (s₁ := ⟨2, ![E, C]⟩) (s₂ := ⟨2, ![E, D]⟩) (1 : Fin 2) A B hc
    (ix2 e (⟨f.val, hf⟩ : Fin T)) rfl (ix2 e f) (fun b => by
      match b with
      | ⟨0, _⟩ => rfl
      | ⟨1, _⟩ => rfl)]

/-- The `D` columns from column `C` on of the scatter-add of `[A | B]` into `X` are the scatter-add of `B` into
    those columns of `X`: column `C + f` of `[A | B]` is column `f` of `B`. -/
theorem slice_scatterAdd_concat_right
    (wfT : ScatterDims.WF ⟨2, ![N, T]⟩ ⟨2, ![E, 1]⟩ ⟨2, ![E, T]⟩ [1] [0] [0] 1)
    (wfD : ScatterDims.WF ⟨2, ![N, D]⟩ ⟨2, ![E, 1]⟩ ⟨2, ![E, D]⟩ [1] [0] [0] 1)
    (hc : Shape.Concatenates [(⟨2, ![E, C]⟩ : Shape), ⟨2, ![E, D]⟩] ⟨2, ![E, T]⟩ 1)
    (hs : (⟨2, ![N, T]⟩ : Shape).Slices ![0, C] ⟨2, ![N, D]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, D]⟩ ![0, C]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E D wfD) (extractStridedSlice ⟨2, ![N, D]⟩ ![0, C] X hs) I B := by
  funext i
  obtain ⟨n, f, rfl⟩ : ∃ (n : Fin N) (f : Fin D), i = ix2 n f := ⟨i 0, i 1, eq_ix2 i⟩
  have hCT : C + D ≤ T := by have := hs.2 1; simpa using this
  have hf : C + f.val < T := by have := f.isLt; omega
  have hk : ∀ a : Fin 2, ((ix2 n (⟨C + f.val, hf⟩ : Fin T) : (⟨2, ![N, T]⟩ : Shape).Idx) a).val
      = (![0, C] : Fin 2 → Nat) a + ((ix2 n f : (⟨2, ![N, D]⟩ : Shape).Idx) (a.cast hs.1.symm)).val := fun a => by
    match a with
    | ⟨0, _⟩ => exact (Nat.zero_add _).symm
    | ⟨1, _⟩ => rfl
  rw [extractStridedSlice_apply ![0, C] _ hs (ix2 n f) (ix2 n (⟨C + f.val, hf⟩ : Fin T)) hk,
    scatterAdd_rows_apply, scatterAdd_rows_apply,
    extractStridedSlice_apply ![0, C] X hs (ix2 n f) (ix2 n (⟨C + f.val, hf⟩ : Fin T)) hk]
  congr 1
  refine Finset.sum_congr rfl fun e _ => ?_
  rw [concatenate_pair_apply_right (t := ⟨2, ![E, T]⟩) (s₁ := ⟨2, ![E, C]⟩) (s₂ := ⟨2, ![E, D]⟩) (1 : Fin 2) A B hc
    (ix2 e (⟨C + f.val, hf⟩ : Fin T)) rfl rfl (ix2 e f) (fun b hb => by
      match b with
      | ⟨0, _⟩ => rfl
      | ⟨1, _⟩ => exact absurd rfl hb) (Nat.add_comm _ _)]

/-- A block cut out of a scalar spread over a whole array is the scalar spread over the block (the all-zero
    array a scatter-add starts from is of this form). -/
theorem extractStridedSlice_broadcastInDim_scalar {α : Type} {s t : Shape} (off : Fin s.rank → Nat) (hs : s.Slices off t)
    (dims : Fin (⟨0, ![]⟩ : Shape).rank → Fin s.rank) (dims' : Fin (⟨0, ![]⟩ : Shape).rank → Fin t.rank)
    (hb : (⟨0, ![]⟩ : Shape).BroadcastsInDim s dims) (hb' : (⟨0, ![]⟩ : Shape).BroadcastsInDim t dims')
    (z : (⟨0, ![]⟩ : Shape).Idx → α) :
    extractStridedSlice t off (broadcastInDim s dims hb z) hs = broadcastInDim t dims' hb' z := by
  funext j
  unfold extractStridedSlice broadcastInDim
  exact congrArg z (funext fun a => a.elim0)

end ScatterColumns

/-! ## Gathering rows -/

/-- The dimension numbers of a row gather: result `[E, C]` reads an operand `[N, C]` at the rows named by start
    indices `[E, 1]` — the result's axis 1 is the offset axis, the operand's axis 0 is collapsed and is the one the
    index names, slices are one row of `C` columns, the index vector lies along axis 1 of the indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}
  (wf : GatherDims.WF ⟨2, ![N, C]⟩ ⟨2, ![E, 1]⟩ ⟨2, ![E, C]⟩ [1] [0] [] [0] [] 1 ![1, C])
  (J : IVec ⟨2, ![E, 1]⟩ w)

/-- The row result row `e` reads: the start index `J (e, 0)` as a signed integer, brought into `[0, N − 1]`. -/
def gatherRow (hN : 0 < N) (e : Fin E) : Fin N :=
  ⟨min (J (ix2 e (0 : Fin 1))).toInt.toNat (N - 1), by omega⟩

/-- The operand index of result `(e, f)` is `(gatherRow e, f)`. -/
theorem rowGather_operandIdx (hN : 0 < N) (e : Fin E) (f : Fin C) :
    (rowGather N E C wf).operandIdx (ix2 e f) J = ix2 (gatherRow J hN e) f := by
  funext a
  refine Fin.ext ?_
  match a with
  | ⟨0, _⟩ =>
    show (rowGather N E C wf).start (ix2 e f) J 0 + (rowGather N E C wf).batchCoord (ix2 e f) 0
      + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e f) J 1 + (rowGather N E C wf).batchCoord (ix2 e f) 1
      + (rowGather N E C wf).offCoord (ix2 e f) 1 = f.val
    rw [GatherDims.batchCoord_eq_zero _ _ _ List.not_mem_nil]
    have hst : (rowGather N E C wf).start (ix2 e f) J 1 = 0 := by
      unfold GatherDims.start
      rw [dif_neg (show (1 : Fin 2) ∉ ([0] : List (Fin 2)) by simp)]
    have hoff : (rowGather N E C wf).offCoord (ix2 e f) 1 = f.val := by
      unfold GatherDims.offCoord
      rw [dif_pos ((GatherDims.mem_sKept _ _).mpr ⟨by simp, List.not_mem_nil⟩)]
      rfl
    rw [hst, hoff]; omega

/-- THE ROW GATHER AT `(e, f)`: the operand at `(gatherRow e, f)`. -/
theorem gather_rows_apply (hN : 0 < N) (x : (⟨2, ![N, C]⟩ : Shape).Idx → α) (e : Fin E) (f : Fin C) :
    Host.gather (rowGather N E C wf) x J (ix2 e f) = x (ix2 (gatherRow J hN e) f) := by
  unfold Host.gather
  rw [rowGather_operandIdx wf J hN e f]

end Gather

/-! ## A row gather of two arrays side by side, cut back into its column ranges -/

section GatherColumns
variable {α : Type} {N E C D T w : Nat}

/-- The first `C` columns of the row gather of `[P | Q]` are the row gather of `P`: both read row `gatherRow e`
    (the operands have the same number of rows, so the start index is brought into the same range). -/
theorem slice_gather_concat_left (hN : 0 < N)
    (wfT : GatherDims.WF ⟨2, ![N, T]⟩ ⟨2, ![E, 1]⟩ ⟨2, ![E, T]⟩ [1] [0] [] [0] [] 1 ![1, T])
    (wfC : GatherDims.WF ⟨2, ![N, C]⟩ ⟨2, ![E, 1]⟩ ⟨2, ![E, C]⟩ [1] [0] [] [0] [] 1 ![1, C])
    (hc : Shape.Concatenates [(⟨2, ![N, C]⟩ : Shape), ⟨2, ![N, D]⟩] ⟨2, ![N, T]⟩ 1)
    (hs : (⟨2, ![E, T]⟩ : Shape).Slices ![0, 0] ⟨2, ![E, C]⟩)
    (P : (⟨2, ![N, C]⟩ : Shape).Idx → α) (Q : (⟨2, ![N, D]⟩ : Shape).Idx → α) (J : IVec ⟨2, ![E, 1]⟩ w) :
    extractStridedSlice ⟨2, ![E, C]⟩ ![0, 0]
        (Host.gather (rowGather N E T wfT)
          (concatenate ⟨2, ![N, T]⟩ 1 [⟨⟨2, ![N, C]⟩, P⟩, ⟨⟨2, ![N, D]⟩, Q⟩] hc) J) hs
      = Host.gather (rowGather N E C wfC) P J := by
  funext i
  obtain ⟨e, f, rfl⟩ : ∃ (e : Fin E) (f : Fin C), i = ix2 e f := ⟨i 0, i 1, eq_ix2 i⟩
  have hCT : C ≤ T := by have := hs.2 1; simpa using this
  have hf : f.val < T := lt_of_lt_of_le f.isLt hCT
  rw [extractStridedSlice_apply ![0, 0] _ hs (ix2 e f) (ix2 e (⟨f.val, hf⟩ : Fin T)) (fun a => by
      match a with
      | ⟨0, _⟩ => exact (Nat.zero_add _).symm
      | ⟨1, _⟩ => exact (Nat.zero_add _).symm),
    gather_rows_apply wfT J hN, gather_rows_apply wfC J hN]
  exact concatenate_pair_apply_left (t := ⟨2, ![N, T]⟩) (s₁ := ⟨2, ![N, C]⟩) (s₂ := ⟨2, ![N, D]⟩) (1 : Fin 2) P Q hc
    (ix2 (gatherRow J hN e) (⟨f.val, hf⟩ : Fin T)) rfl (ix2 (gatherRow J hN e) f) (fun b => by
      match b with
      | ⟨0, _⟩ => rfl
      | ⟨1, _⟩ => rfl)

/-- The `D` columns from column `C` on of the row gather of `[P | Q]` are the row gather of `Q`. -/
theorem slice_gather_concat_right (hN : 0 < N)
    (wfT : GatherDims.WF ⟨2, ![N, T]⟩ ⟨2, ![E, 1]⟩ ⟨2, ![E, T]⟩ [1] [0] [] [0] [] 1 ![1, T])
    (wfD : GatherDims.WF ⟨2, ![N, D]⟩ ⟨2, ![E, 1]⟩ ⟨2, ![E, D]⟩ [1] [0] [] [0] [] 1 ![1, D])
    (hc : Shape.Concatenates [(⟨2, ![N, C]⟩ : Shape), ⟨2, ![N, D]⟩] ⟨2, ![N, T]⟩ 1)
    (hs : (⟨2, ![E, T]⟩ : Shape).Slices ![0, C] ⟨2, ![E, D]⟩)
    (P : (⟨2, ![N, C]⟩ : Shape).Idx → α) (Q : (⟨2, ![N, D]⟩ : Shape).Idx → α) (J : IVec ⟨2, ![E, 1]⟩ w) :
    extractStridedSlice ⟨2, ![E, D]⟩ ![0, C]
        (Host.gather (rowGather N E T wfT)
          (concatenate ⟨2, ![N, T]⟩ 1 [⟨⟨2, ![N, C]⟩, P⟩, ⟨⟨2, ![N, D]⟩, Q⟩] hc) J) hs
      = Host.gather (rowGather N E D wfD) Q J := by
  funext i
  obtain ⟨e, f, rfl⟩ : ∃ (e : Fin E) (f : Fin D), i = ix2 e f := ⟨i 0, i 1, eq_ix2 i⟩
  have hCT : C + D ≤ T := by have := hs.2 1; simpa using this
  have hf : C + f.val < T := by have := f.isLt; omega
  rw [extractStridedSlice_apply ![0, C] _ hs (ix2 e f) (ix2 e (⟨C + f.val, hf⟩ : Fin T)) (fun a => by
      match a with
      | ⟨0, _⟩ => exact (Nat.zero_add _).symm
      | ⟨1, _⟩ => rfl),
    gather_rows_apply wfT J hN, gather_rows_apply wfD J hN]
  exact concatenate_pair_apply_right (t := ⟨2, ![N, T]⟩) (s₁ := ⟨2, ![N, C]⟩) (s₂ := ⟨2, ![N, D]⟩) (1 : Fin 2) P Q hc
    (ix2 (gatherRow J hN e) (⟨C + f.val, hf⟩ : Fin T)) rfl rfl (ix2 (gatherRow J hN e) f) (fun b hb => by
      match b with
      | ⟨0, _⟩ => rfl
      | ⟨1, _⟩ => exact absurd rfl hb) (Nat.add_comm _ _)

end GatherColumns

/-! ## Format changes around a gather, at the ideal instance -/

section Formats
variable {s si t : Shape} {w : Nat} {φ ψ : FTy}

/-- On the extended reals a narrowing and a widening of the format are the identity, so a gather of a narrowed
    array, widened again, is the gather of the array. -/
theorem extf_gather_truncf (d : GatherDims s si t) (X : FVec Ideal s φ) (J : IVec si w)
    (h : ψ.bits < φ.bits) (h' : ψ.bits < φ.bits) :
    extf φ (Host.gather d (truncf ψ X h) J) h' = Host.gather d X J := rfl

/-- A narrowing of the format is the identity on the extended reals. -/
theorem truncf_eq (X : FVec Ideal s φ) (h : ψ.bits < φ.bits) : (truncf ψ X h : FVec Ideal s ψ) = X := rfl

/-- A widening of the format is the identity on the extended reals. -/
theorem extf_eq (X : FVec Ideal s φ) (h : φ.bits < ψ.bits) : (extf ψ X h : FVec Ideal s ψ) = X := rfl

end Formats

end Cert.LibColumns

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«113383_g81114752352452_cont_sun_c4_492_19_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.RLayer.lean ====
/-
  One layer of the reference, read at an entry.

  A layer gathers, for every edge slot `E`, the source node's feature row and the relation's embedding row,
  multiplies them entry by entry, applies the layer matrix, scales the resulting message by the slot's edge weight
  and adds it into the row of the slot's target node. Read at node `n` and feature `j`, the aggregate is the sum,
  over the slots whose target is `n`, of the slot's weighted message at `j`.
-/
import proofs.«113383_g81114752352452_cont_sun_c4_492_19_alg».proof.Proof.RefRead
import proofs.«113383_g81114752352452_cont_sun_c4_492_19_alg».proof.Proof.LibColumns
import proofs.«113383_g81114752352452_cont_sun_c4_492_19_alg».proof.Proof.LibColumn
import proofs.«113383_g81114752352452_cont_sun_c4_492_19_alg».proof.Proof.LibHostDot
import Idealize.ShloMosaic.Lib.ValueIdx
import Idealize.ShloMosaic.Lib.Pipeline.Value

noncomputable section

open scoped BigOperators

namespace Cert.RefLayer

open Cert.ReferenceIdeal Cert.ReferenceIdeal.Gen Cert.ReferenceIdeal.ReadP Idealize.ShloMosaic Idealize.ShloMosaic.ValueIdx
open Cert.LibColumns

variable (h : FVec Ideal S512x128 .f32) (r : FVec Ideal S4x128 .f32) (W : FVec Ideal S128x128 .f32)
  (JS JE JT : IVec S524288x1 32) (en : FVec Ideal S524288 .f32)

/-- The weighted message of slot `E` at feature `j`. -/
theorem msg_apply (E : Fin 524288) (j : Fin 128) :
    mulf (Host.dotGeneral (F := Ideal) dot_S524288x128_S128x128_S524288x128_1_0_0_1_n_n none
          (mulf (Host.gather gather_S512x128_S524288x1_S524288x128_1_0_n_n_0_1_1128 h JS)
            (Host.gather gather_S4x128_S524288x1_S524288x128_1_0_n_n_0_1_1128 r JE)) W)
        (broadcastInDim S524288x128 ![0, 1] bcast_S524288x1_S524288x128_0_1
          (broadcastInDim S524288x1 ![0] bcast_S524288_S524288x1_0 en)) (ix2 E j)
      = (∑ k : Fin 128, (h (ix2 (gatherRow JS (by decide : 0 < 512) E) k) * r (ix2 (gatherRow JE (by decide : 0 < 4) E) k))
            * W (ix2 k j)) * en (ix1 E) := by
  rw [mulf_apply]
  congr 1
  · refine (Cert.LibHostDot.hostDot_apply (R := 524288) (K := 128) (C := 128)
      dot_S524288x128_S128x128_S524288x128_1_0_0_1_n_n_wf none _ W E j).trans ?_
    refine Finset.sum_congr rfl fun k _ => ?_
    rw [mulf_apply]
    congr 2
    · exact gather_rows_apply (N := 512) (E := 524288) (C := 128)
        gather_S512x128_S524288x1_S524288x128_1_0_n_n_0_1_1128_wf JS (by decide) h E k
    · exact gather_rows_apply (N := 4) (E := 524288) (C := 128)
        gather_S4x128_S524288x1_S524288x128_1_0_n_n_0_1_1128_wf JE (by decide) r E k
  · rw [Cert.LibColumn.bcastInDim_a1_ab_apply, Cert.LibColumn.bcastInDim_a_a1_apply]

/-- THE AGGREGATE AT `(n, j)`: zero plus the sum, over the slots whose target index is `n`, of the weighted
    message. -/
theorem agg_apply (n : Fin 512) (j : Fin 128) :
    Host.scatterAdd (F := Ideal) scatter_S512x128_S524288x1_S524288x128_1_0_0_1
        (broadcastInDim S512x128 ![] bcast_S_S512x128 (constant (F := Ideal) S_ .f32 0x00000000#32)) JT
        (mulf (Host.dotGeneral (F := Ideal) dot_S524288x128_S128x128_S524288x128_1_0_0_1_n_n none
            (mulf (Host.gather gather_S512x128_S524288x1_S524288x128_1_0_n_n_0_1_1128 h JS)
              (Host.gather gather_S4x128_S524288x1_S524288x128_1_0_n_n_0_1_1128 r JE)) W)
          (broadcastInDim S524288x128 ![0, 1] bcast_S524288x1_S524288x128_0_1
            (broadcastInDim S524288x1 ![0] bcast_S524288_S524288x1_0 en))) (ix2 n j)
      = ∑ E : Fin 524288, if (JT (ix2 E (0 : Fin 1))).toInt = (n.val : Int) then
          (∑ k : Fin 128, (h (ix2 (gatherRow JS (by decide : 0 < 512) E) k) * r (ix2 (gatherRow JE (by decide : 0 < 4) E) k))
            * W (ix2 k j)) * en (ix1 E) else 0 := by
  refine (scatterAdd_rows_apply (N := 512) (E := 524288) (C := 128)
    scatter_S512x128_S524288x1_S524288x128_1_0_0_1_wf JT _ _ n j).trans ?_
  rw [Cert.LibColumn.bcastInDim_scalar_apply _ _ _ ix0, constant_apply, Ideal.ofBits_zero_f32, zero_add]
  refine Finset.sum_congr rfl fun E _ => ?_
  rw [msg_apply]

end Cert.RefLayer

end
-- ==== Proof.LibIndexWrap.lean ====
/-
  Wrapping a negative index: `select (idx < 0) (idx + n) idx`.

  Indexing from the end is written as adding the length to a negative index and leaving a non-negative one alone.
  On 32-bit integers compared as signed numbers, an index whose signed value is `≥ 0` is not less than `0`, so the
  choice takes its second branch: the wrapped index IS the index.
-/
import Idealize.ShloMosaic.PureOps.Ideal
import Idealize.ShloMosaic.Lib.ValueIdx

namespace Cert.LibIndexWrap

open Idealize.ShloMosaic Idealize.ShloMosaic.ValueIdx

/-- The signed comparison `x < 0` on 32-bit integers answers the bit `0` when the signed value of `x` is
    non-negative. -/
theorem cmpi_slt_zero_of_nonneg (x : BitVec 32) (hx : 0 ≤ x.toInt) : IntOp.cmpi .slt x 0#32 = 0#1 := by
  have h : x.slt 0#32 = false := by
    rw [BitVec.slt_eq_decide, BitVec.toInt_zero]
    exact decide_eq_false (by omega)
  show BitVec.ofBool (x.slt 0#32) = 0#1
  rw [h]
  rfl

/-- THE WRAP OF A NON-NEGATIVE INDEX: where the signed value of `D i` is `≥ 0`, `select (D < 0) (D + n) D` reads
    `D i` (`z` is the all-zero array the comparison is made against). -/
theorem wrap_of_nonneg {s : Shape} (D z n : IVec s 32) (hz : ∀ i, z i = 0#32) (i : s.Idx) (hi : 0 ≤ (D i).toInt) :
    select (cmpi .slt D z) (addi D n) D i = D i := by
  have hc : cmpi .slt D z i = 0#1 := by
    show IntOp.cmpi .slt (D i) (z i) = 0#1
    rw [hz i]
    exact cmpi_slt_zero_of_nonneg (D i) hi
  rw [select_apply, hc, select_zero]

end Cert.LibIndexWrap
-- ==== Proof.REdges.lean ====
/-
  The reference's edge list, slot by slot.

  The reference lays the 2 * 512 * 512 possible edges out in one list: slot `e * 262144 + s * 512 + t` stands for the
  edge of relation `e` from node `s` to node `t`. Each slot carries a validity bit (the adjacency entry exceeds one
  half), a source node and a target node (both replaced by node 0 in an invalid slot) and the relation number.
  This file reads those four arrays at a slot, shows that the index arrays derived from them by the "negative
  index" wrap select the same nodes, and turns a sum over all slots into the triple sum over `(e, s, t)`.
-/
import proofs.«113383_g81114752352452_cont_sun_c4_492_19_alg».proof.Proof.RefRead
import proofs.«113383_g81114752352452_cont_sun_c4_492_19_alg».proof.Proof.Spec
import proofs.«113383_g81114752352452_cont_sun_c4_492_19_alg».proof.Proof.LibIndexWrap
import proofs.«113383_g81114752352452_cont_sun_c4_492_19_alg».proof.Proof.LibColumns
import Idealize.ShloMosaic.Lib.ValueIdx
import Idealize.ShloMosaic.Lib.Pipeline.Value

noncomputable section

open scoped BigOperators

namespace Cert.RefEdges

open Cert.ReferenceIdeal Cert.ReferenceIdeal.Gen Cert.ReferenceIdeal.ReadP Idealize.ShloMosaic Idealize.ShloMosaic.ValueIdx

/-- The position of the pair `(s, t)` in one relation's flattened 512 x 512 table. -/
def half (s t : Fin 512) : Fin 262144 := ⟨s.val * 512 + t.val, by have := s.isLt; have := t.isLt; omega⟩

/-- The slot of the edge of relation `e` from `s` to `t`. -/
def slot (e : Fin 2) (s t : Fin 512) : Fin 524288 :=
  ⟨e.val * 262144 + (s.val * 512 + t.val), by have := e.isLt; have := s.isLt; have := t.isLt; omega⟩

/-- A sum over all slots is the sum over relations, sources and targets. -/
theorem sum_slots {A : Type*} [AddCommMonoid A] (f : Fin 524288 → A) :
    ∑ E : Fin 524288, f E = ∑ e : Fin 2, ∑ s : Fin 512, ∑ t : Fin 512, f (slot e s t) := by
  let φ : Fin 2 × Fin 512 × Fin 512 → Fin 524288 := fun p => slot p.1 p.2.1 p.2.2
  have hb : Function.Bijective φ := by
    constructor
    · rintro ⟨e, s, t⟩ ⟨e', s', t'⟩ h
      have h' : e.val * 262144 + (s.val * 512 + t.val) = e'.val * 262144 + (s'.val * 512 + t'.val) := congrArg Fin.val h
      have := e.isLt; have := s.isLt; have := t.isLt; have := e'.isLt; have := s'.isLt; have := t'.isLt
      have he : e = e' := Fin.ext (by omega)
      have hs : s = s' := Fin.ext (by omega)
      have ht : t = t' := Fin.ext (by omega)
      rw [he, hs, ht]
    · intro E
      have := E.isLt
      refine ⟨(⟨E.val / 262144, by omega⟩, ⟨E.val % 262144 / 512, by omega⟩, ⟨E.val % 512, by omega⟩), Fin.ext ?_⟩
      show E.val / 262144 * 262144 + (E.val % 262144 / 512 * 512 + E.val % 512) = E.val
      omega
  rw [← hb.sum_comp f, Fintype.sum_prod_type]
  refine Finset.sum_congr rfl fun e _ => ?_
  rw [Fintype.sum_prod_type]

variable (x1 : (⟨S2x512x512, .f32⟩ : BufTy).Contents (Elt Ideal))

/-- The validity bit of relation 0 at `(s, t)`. -/
theorem v11_half (s t : Fin 512) : val_main_v11 (F := Ideal) x1 (ix1 (half s t)) = Cert.Spec.maskOf x1 0 s t := by
  rw [val_main_v11_apply, val_main_v10_apply, val_main_v8_apply, val_main_v7_apply, val_main_v9_apply, val_main_cst_apply]
  have hi : idx_main_v7 (idx_main_v8 (idx_main_v11 (ix1 (half s t)))) = ix3 (0 : Fin 2) s t := by
    have := s.isLt; have := t.isLt
    funext a; refine Fin.ext ?_
    match a with
    | ⟨0, _⟩ => rfl
    | ⟨1, _⟩ =>
      show ((s.val * 512 + t.val) / 512 * 512 + (s.val * 512 + t.val) % 512) / 512 % 512 = s.val
      omega
    | ⟨2, _⟩ =>
      show ((s.val * 512 + t.val) / 512 * 512 + (s.val * 512 + t.val) % 512) % 512 = t.val
      omega
  rw [hi]
  rfl

/-- The validity bit of relation 1 at `(s, t)`. -/
theorem v19_half (s t : Fin 512) : val_main_v19 (F := Ideal) x1 (ix1 (half s t)) = Cert.Spec.maskOf x1 1 s t := by
  rw [val_main_v19_apply, val_main_v18_apply, val_main_v16_apply, val_main_v15_apply, val_main_v17_apply, val_main_cst_2_apply]
  have hi : idx_main_v15 (idx_main_v16 (idx_main_v19 (ix1 (half s t)))) = ix3 (1 : Fin 2) s t := by
    have := s.isLt; have := t.isLt
    funext a; refine Fin.ext ?_
    match a with
    | ⟨0, _⟩ => rfl
    | ⟨1, _⟩ =>
      show ((s.val * 512 + t.val) / 512 * 512 + (s.val * 512 + t.val) % 512) / 512 % 512 = s.val
      omega
    | ⟨2, _⟩ =>
      show ((s.val * 512 + t.val) / 512 * 512 + (s.val * 512 + t.val) % 512) % 512 = t.val
      omega
  rw [hi]
  rfl

/-! ## Two flat arrays joined end to end, read at a slot -/

/-- A join of two arrays of 262144 entries reads the first one in the slots of relation 0 and the second one in the
    slots of relation 1. -/
theorem concat_slot {α : Type} (a b : S262144.Idx → α) (e : Fin 2) (s t : Fin 512) :
    concatenate S524288 0 [⟨S262144, a⟩, ⟨S262144, b⟩] concatenates_S262144_S262144_S524288_d0 (ix1 (slot e s t))
      = if e = 0 then a (ix1 (half s t)) else b (ix1 (half s t)) := by
  have := s.isLt; have := t.isLt
  by_cases he : e = 0
  · subst he
    rw [if_pos rfl]
    exact concatenate_pair_apply_left (0 : Fin 1) a b concatenates_S262144_S262144_S524288_d0 (ix1 (slot 0 s t)) rfl
      (ix1 (half s t)) (fun b' => by
        match b' with
        | ⟨0, _⟩ =>
          show s.val * 512 + t.val = 0 * 262144 + (s.val * 512 + t.val)
          omega)
  · have he1 : e = 1 := Fin.ext (by have := e.isLt; have : e.val ≠ 0 := fun h => he (Fin.ext h); omega)
    subst he1
    rw [if_neg (by decide)]
    exact concatenate_pair_apply_right (0 : Fin 1) a b concatenates_S262144_S262144_S524288_d0 (ix1 (slot 1 s t)) rfl rfl
      (ix1 (half s t)) (fun b' hb => absurd (Subsingleton.elim _ _) hb) (by
        show s.val * 512 + t.val + 262144 = 1 * 262144 + (s.val * 512 + t.val)
        omega)

/-! ## The four edge arrays at a slot -/

/-- The validity bit of a slot is the edge bit. -/
theorem v26_slot (e : Fin 2) (s t : Fin 512) :
    val_main_v26 (F := Ideal) x1 (ix1 (slot e s t)) = Cert.Spec.maskOf x1 e s t := by
  unfold val_main_v26
  rw [concat_slot]
  by_cases he : e = 0
  · subst he; rw [if_pos rfl, v11_half]
  · have he1 : e = 1 := Fin.ext (by have := e.isLt; have : e.val ≠ 0 := fun h => he (Fin.ext h); omega)
    subst he1; rw [if_neg (by decide), v19_half]

/-- The row number of a position in the flattened table. -/
theorem v2_half (s t : Fin 512) : val_main_v2 (F := Ideal) (ix1 (half s t)) = BitVec.ofNat 32 s.val := by
  rw [val_main_v2_apply, val_main_v1_apply, val_main_v0_apply]
  have := s.isLt; have := t.isLt
  show BitVec.ofNat 32 ((s.val * 512 + t.val) / 512) = _
  congr 1; omega

/-- The column number of a position in the flattened table. -/
theorem v6_half (s t : Fin 512) : val_main_v6 (F := Ideal) (ix1 (half s t)) = BitVec.ofNat 32 t.val := by
  rw [val_main_v6_apply, val_main_v5_apply, val_main_v4_apply, val_main_v3_apply]
  have := s.isLt; have := t.isLt
  show BitVec.ofNat 32 (0 * 512 + (s.val * 512 + t.val) % 512) = _
  congr 1; omega

/-- The source node of a slot: `s` in a valid slot, node 0 in an invalid one. -/
theorem v23_slot (e : Fin 2) (s t : Fin 512) :
    val_main_v23 (F := Ideal) x1 (ix1 (slot e s t))
      = Scalar.select (Cert.Spec.maskOf x1 e s t) (BitVec.ofNat 32 s.val) 0#32 := by
  unfold val_main_v23
  rw [concat_slot]
  by_cases he : e = 0
  · subst he
    rw [if_pos rfl, val_main_v12_apply, v11_half, v2_half, val_main_call0_v1_apply]; rfl
  · have he1 : e = 1 := Fin.ext (by have := e.isLt; have : e.val ≠ 0 := fun h => he (Fin.ext h); omega)
    subst he1
    rw [if_neg (by decide), val_main_v20_apply, v19_half, v2_half, val_main_call2_v1_apply]; rfl

/-- The target node of a slot: `t` in a valid slot, node 0 in an invalid one. -/
theorem v24_slot (e : Fin 2) (s t : Fin 512) :
    val_main_v24 (F := Ideal) x1 (ix1 (slot e s t))
      = Scalar.select (Cert.Spec.maskOf x1 e s t) (BitVec.ofNat 32 t.val) 0#32 := by
  unfold val_main_v24
  rw [concat_slot]
  by_cases he : e = 0
  · subst he
    rw [if_pos rfl, val_main_v13_apply, v11_half, v6_half, val_main_call1_v1_apply]; rfl
  · have he1 : e = 1 := Fin.ext (by have := e.isLt; have : e.val ≠ 0 := fun h => he (Fin.ext h); omega)
    subst he1
    rw [if_neg (by decide), val_main_v21_apply, v19_half, v6_half, val_main_call3_v1_apply]; rfl

/-- The relation number of a slot. -/
theorem v25_slot (e : Fin 2) (s t : Fin 512) :
    val_main_v25 (F := Ideal) (ix1 (slot e s t)) = BitVec.ofNat 32 e.val := by
  unfold val_main_v25
  rw [concat_slot]
  by_cases he : e = 0
  · subst he
    rw [if_pos rfl, val_main_v14_apply]; rfl
  · have he1 : e = 1 := Fin.ext (by have := e.isLt; have : e.val ≠ 0 := fun h => he (Fin.ext h); omega)
    subst he1
    rw [if_neg (by decide), val_main_v22_apply]; rfl

/-! ## Nodes as numbers -/

/-- The node a slot's source or target array names: `v` when the bit is set, node 0 otherwise. -/
def pick {n : Nat} [NeZero n] (b : BitVec 1) (v : Fin n) : Fin n := if b = 1#1 then v else 0

theorem select_ofNat {n : Nat} [NeZero n] (b : BitVec 1) (v : Fin n) :
    Scalar.select b (BitVec.ofNat 32 v.val) 0#32 = BitVec.ofNat 32 (pick b v).val := by
  unfold pick
  by_cases hb : b = 1#1
  · rw [hb, select_one, if_pos rfl]
  · rw [eq_zero_of_ne_one hb, select_zero, if_neg (by decide)]; rfl

/-- A small natural number as a 32-bit word reads back, signed, as itself. -/
theorem toInt_ofNat_small (k : Nat) (hk : k < 2 ^ 31) : (BitVec.ofNat 32 k).toInt = (k : Int) := by
  have h1 : (BitVec.ofNat 32 k).toNat = k := by
    rw [BitVec.toNat_ofNat]; exact Nat.mod_eq_of_lt (by omega)
  rw [BitVec.toInt_eq_toNat_of_lt (by rw [h1]; omega), h1]

/-! ## The wrapped index columns -/

/-- An index column built from a flat array `D` of non-negative numbers by the wrap of negative indices and a
    trailing unit axis reads, at slot `E`, the number `D` holds there. -/
theorem wrapped_col (D z n : IVec S524288 32) (hz : ∀ i, z i = 0#32) (E : Fin 524288) (k : Nat) (hk : k < 2 ^ 31)
    (hD : D (ix1 E) = BitVec.ofNat 32 k) :
    (broadcastInDim S524288x1 ![0] bcast_S524288_S524288x1_0 (select (cmpi .slt D z) (addi D n) D)
      (ix2 E (0 : Fin 1))).toInt = (k : Int) := by
  rw [broadcastInDim_apply _ bcast_S524288_S524288x1_0 _ (ix2 E (0 : Fin 1)) (ix1 E) (fun a => by
      match a with
      | ⟨0, _⟩ =>
        show E.val = if (524288 : Nat) = 1 then 0 else E.val
        rw [if_neg (by decide)]),
    Cert.LibIndexWrap.wrap_of_nonneg D z n hz (ix1 E) (by rw [hD, toInt_ofNat_small k hk]; omega), hD,
    toInt_ofNat_small k hk]

/-- The row a gather reads when its start index is the number of a row. -/
theorem gatherRow_of_toInt {N : Nat} (hN : 0 < N) (J : IVec S524288x1 32) (E : Fin 524288) (v : Fin N)
    (h : (J (ix2 E (0 : Fin 1))).toInt = (v.val : Int)) : Cert.LibColumns.gatherRow J hN E = v := by
  apply Fin.ext
  show min (J (ix2 E (0 : Fin 1))).toInt.toNat (N - 1) = v.val
  rw [h]
  have := v.isLt
  omega

section Columns
variable (e : Fin 2) (s t : Fin 512)

theorem pick_lt {n : Nat} [NeZero n] (b : BitVec 1) (v : Fin n) (hn : n ≤ 512) : (pick b v).val < 2 ^ 31 := by
  have := (pick b v).isLt; omega

theorem zero29 (i : S524288.Idx) : val_main_v29 (F := Ideal) i = 0#32 := by rw [val_main_v29_apply]; rfl
theorem zero42 (i : S524288.Idx) : val_main_v42 (F := Ideal) i = 0#32 := by rw [val_main_v42_apply]; rfl
theorem zero49 (i : S524288.Idx) : val_main_v49 (F := Ideal) i = 0#32 := by rw [val_main_v49_apply]; rfl
theorem zero59 (i : S524288.Idx) : val_main_v59 (F := Ideal) i = 0#32 := by rw [val_main_v59_apply]; rfl
theorem zero66 (i : S524288.Idx) : val_main_v66 (F := Ideal) i = 0#32 := by rw [val_main_v66_apply]; rfl
theorem zero81 (i : S524288.Idx) : val_main_v81 (F := Ideal) i = 0#32 := by rw [val_main_v81_apply]; rfl
theorem zero105 (i : S524288.Idx) : val_main_v105 (F := Ideal) i = 0#32 := by rw [val_main_v105_apply]; rfl
theorem zero112 (i : S524288.Idx) : val_main_v112 (F := Ideal) i = 0#32 := by rw [val_main_v112_apply]; rfl
theorem zero127 (i : S524288.Idx) : val_main_v127 (F := Ideal) i = 0#32 := by rw [val_main_v127_apply]; rfl

/-- The target column of the degree count. -/
theorem tgt34 : (val_main_v34 (F := Ideal) x1 (ix2 (slot e s t) (0 : Fin 1))).toInt
    = ((pick (Cert.Spec.maskOf x1 e s t) t).val : Int) :=
  wrapped_col (val_main_v24 (F := Ideal) x1) val_main_v29 val_main_v31 zero29 (slot e s t) _ (pick_lt _ _ (le_refl _))
    (by rw [v24_slot, select_ofNat])

/-- The target column of the first layer's aggregation. -/
theorem tgt86 : (val_main_v86 (F := Ideal) x1 (ix2 (slot e s t) (0 : Fin 1))).toInt
    = ((pick (Cert.Spec.maskOf x1 e s t) t).val : Int) :=
  wrapped_col (val_main_v24 (F := Ideal) x1) val_main_v81 val_main_v83 zero81 (slot e s t) _ (pick_lt _ _ (le_refl _))
    (by rw [v24_slot, select_ofNat])

/-- The target column of the second layer's aggregation. -/
theorem tgt132 : (val_main_v132 (F := Ideal) x1 (ix2 (slot e s t) (0 : Fin 1))).toInt
    = ((pick (Cert.Spec.maskOf x1 e s t) t).val : Int) :=
  wrapped_col (val_main_v24 (F := Ideal) x1) val_main_v127 val_main_v129 zero127 (slot e s t) _ (pick_lt _ _ (le_refl _))
    (by rw [v24_slot, select_ofNat])

/-- The edge weight's target row. -/
theorem row47 : Cert.LibColumns.gatherRow (val_main_v47 (F := Ideal) x1) (by decide : 0 < 512) (slot e s t)
    = pick (Cert.Spec.maskOf x1 e s t) t :=
  gatherRow_of_toInt _ _ _ _ (wrapped_col (val_main_v24 (F := Ideal) x1) val_main_v42 val_main_v44 zero42 (slot e s t) _
    (pick_lt _ _ (le_refl _)) (by rw [v24_slot, select_ofNat]))

/-- The edge weight's source row. -/
theorem row54 : Cert.LibColumns.gatherRow (val_main_v54 (F := Ideal) x1) (by decide : 0 < 512) (slot e s t)
    = pick (Cert.Spec.maskOf x1 e s t) s :=
  gatherRow_of_toInt _ _ _ _ (wrapped_col (val_main_v23 (F := Ideal) x1) val_main_v49 val_main_v51 zero49 (slot e s t) _
    (pick_lt _ _ (le_refl _)) (by rw [v23_slot, select_ofNat]))

/-- The first layer's source row. -/
theorem row64 : Cert.LibColumns.gatherRow (val_main_v64 (F := Ideal) x1) (by decide : 0 < 512) (slot e s t)
    = pick (Cert.Spec.maskOf x1 e s t) s :=
  gatherRow_of_toInt _ _ _ _ (wrapped_col (val_main_v23 (F := Ideal) x1) val_main_v59 val_main_v61 zero59 (slot e s t) _
    (pick_lt _ _ (le_refl _)) (by rw [v23_slot, select_ofNat]))

/-- The second layer's source row. -/
theorem row110 : Cert.LibColumns.gatherRow (val_main_v110 (F := Ideal) x1) (by decide : 0 < 512) (slot e s t)
    = pick (Cert.Spec.maskOf x1 e s t) s :=
  gatherRow_of_toInt _ _ _ _ (wrapped_col (val_main_v23 (F := Ideal) x1) val_main_v105 val_main_v107 zero105 (slot e s t) _
    (pick_lt _ _ (le_refl _)) (by rw [v23_slot, select_ofNat]))

/-- The first layer's relation row. -/
theorem row71 : Cert.LibColumns.gatherRow (val_main_v71 (F := Ideal)) (by decide : 0 < 4) (slot e s t)
    = (⟨e.val, by have := e.isLt; omega⟩ : Fin 4) :=
  gatherRow_of_toInt _ _ _ _ (wrapped_col (val_main_v25 (F := Ideal)) val_main_v66 val_main_v68 zero66 (slot e s t) e.val
    (by have := e.isLt; omega) (v25_slot e s t))

/-- The second layer's relation row. -/
theorem row117 : Cert.LibColumns.gatherRow (val_main_v117 (F := Ideal)) (by decide : 0 < 4) (slot e s t)
    = (⟨e.val, by have := e.isLt; omega⟩ : Fin 4) :=
  gatherRow_of_toInt _ _ _ _ (wrapped_col (val_main_v25 (F := Ideal)) val_main_v112 val_main_v114 zero112 (slot e s t) e.val
    (by have := e.isLt; omega) (v25_slot e s t))

end Columns

end Cert.RefEdges

end
-- ==== Proof.LibScaleSum.lean ====
/-
  Scaling a sum on the extended reals.

  On the extended reals multiplication does not distribute over addition in general: `⊤ + ⊥ = ⊥`, so for a
  negative or an infinite factor the two sides can differ. For a factor that is a NON-NEGATIVE REAL NUMBER
  (`0 ≤ d`, `d ≠ ⊤`) it does: `d = 0` kills both sides, and a positive real keeps every infinity's sign.
  Hence a finite sum multiplied by such a factor is the sum of the multiplied terms, and the same holds for a sum
  restricted to the indices satisfying a predicate (the terms outside it are `0`, and `0 * d = 0`).
-/
import Mathlib.Data.EReal.Operations
import Mathlib.Algebra.BigOperators.Group.Finset.Basic

open scoped BigOperators

namespace Cert.LibScaleSum

/-- Multiplication on the right by a non-negative real number distributes over a sum of two extended reals. -/
theorem add_mul_of_nonneg_ne_top (x y d : EReal) (h0 : 0 ≤ d) (ht : d ≠ ⊤) : (x + y) * d = x * d + y * d :=
  EReal.right_distrib_of_nonneg_of_ne_top h0 ht x y

/-- Multiplication on the right by a non-negative real number distributes over a finite sum of extended
    reals. -/
theorem sum_mul_of_nonneg_ne_top {ι : Type*} (s : Finset ι) (a : ι → EReal) (d : EReal) (h0 : 0 ≤ d) (ht : d ≠ ⊤) :
    (∑ e ∈ s, a e) * d = ∑ e ∈ s, a e * d := by
  classical
  induction s using Finset.induction_on with
  | empty => simp
  | insert i s hi ih =>
    rw [Finset.sum_insert hi, Finset.sum_insert hi, add_mul_of_nonneg_ne_top _ _ d h0 ht, ih]

/-- A sum over the indices satisfying `p` (the other terms are `0`), multiplied by a non-negative real number, is
    the sum over the same indices of the multiplied terms. -/
theorem sum_ite_mul {ι : Type*} [Fintype ι] (p : ι → Prop) [DecidablePred p] (a : ι → EReal) (d : EReal)
    (h0 : 0 ≤ d) (ht : d ≠ ⊤) :
    (∑ e, if p e then a e else 0) * d = ∑ e, if p e then a e * d else 0 := by
  rw [sum_mul_of_nonneg_ne_top Finset.univ _ d h0 ht]
  refine Finset.sum_congr rfl fun e _ => ?_
  by_cases h : p e
  · rw [if_pos h, if_pos h]
  · rw [if_neg h, if_neg h, zero_mul]

end Cert.LibScaleSum
-- ==== Proof.Algebra.lean ====
/-
  The degree normalisation is a non-negative real number, and the two arrangements of a layer's neighbour sum agree.

  The in-degree is a finite sum of zeros and ones, so it is a non-negative real; its inverse square root, taken where
  the degree is positive, is a positive real, and the normalisation is `0` elsewhere. Multiplication by a
  non-negative real distributes over sums of extended reals, so the factor `nrm n` of the target node can be moved
  inside the sum over the edges into `n`; the rest is commutativity and associativity of the product.
-/
import proofs.«113383_g81114752352452_cont_sun_c4_492_19_alg».proof.Proof.Spec
import proofs.«113383_g81114752352452_cont_sun_c4_492_19_alg».proof.Proof.LibScaleSum

noncomputable section

open scoped BigOperators

namespace Cert.Spec

open Idealize.ShloMosaic

theorem eq_zero_of_bit {b : BitVec 1} (h : ¬ b = 1#1) : b = 0#1 := by
  rcases BitVec.eq_zero_or_eq_one b with h0 | h1
  · exact h0
  · exact absurd h1 h

theorem bit01_one : bit01 1#1 = 1 := if_pos rfl
theorem bit01_zero : bit01 0#1 = 0 := if_neg (by decide)

/-- A bit is a non-negative real number. -/
theorem bit01_eq_coe (b : BitVec 1) : bit01 b = (((if b = 1#1 then 1 else 0 : ℝ)) : EReal) := by
  unfold bit01
  by_cases hb : b = 1#1
  · rw [if_pos hb, if_pos hb]; rfl
  · rw [if_neg hb, if_neg hb]; rfl

/-- The coercion of reals into extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

section Graph
variable (M : Fin 2 → Fin 512 → Fin 512 → BitVec 1)

/-- The in-degree as a real number. -/
def degR (t : Fin 512) : ℝ := ∑ e : Fin 2, ∑ s : Fin 512, (if M e s t = 1#1 then 1 else 0 : ℝ)

theorem deg_eq_coe (t : Fin 512) : deg M t = ((degR M t : ℝ) : EReal) := by
  unfold deg degR
  rw [coe_sum]
  refine Finset.sum_congr rfl fun e _ => ?_
  rw [coe_sum]
  refine Finset.sum_congr rfl fun s _ => ?_
  exact bit01_eq_coe _

theorem degR_nonneg (t : Fin 512) : 0 ≤ degR M t :=
  Finset.sum_nonneg fun e _ => Finset.sum_nonneg fun s _ => by split <;> norm_num

/-- The normalisation is a non-negative real number. -/
theorem nrm_eq_coe (t : Fin 512) : ∃ c : ℝ, 0 ≤ c ∧ nrm M t = (c : EReal) := by
  unfold nrm
  rw [deg_eq_coe]
  by_cases hpos : (0 : EReal) < ((degR M t : ℝ) : EReal)
  · rw [if_pos hpos]
    have hr : 0 < degR M t := by exact_mod_cast hpos
    refine ⟨(Real.sqrt (degR M t))⁻¹, inv_nonneg.mpr (Real.sqrt_nonneg _), ?_⟩
    rw [Ideal.rsqrt_coe, if_neg (not_lt.mpr hr.le), if_neg hr.ne']
  · rw [if_neg hpos]
    exact ⟨0, le_refl _, rfl⟩

theorem nrm_nonneg (t : Fin 512) : 0 ≤ nrm M t := by
  obtain ⟨c, hc, h⟩ := nrm_eq_coe M t
  rw [h]; exact_mod_cast hc

theorem nrm_ne_top (t : Fin 512) : nrm M t ≠ ⊤ := by
  obtain ⟨c, _, h⟩ := nrm_eq_coe M t
  rw [h]; exact EReal.coe_ne_top c

/-- THE TWO ARRANGEMENTS OF THE NEIGHBOUR SUM. Summing, over the edges `(e, s → n)`, the message
    `((h s · r e) W) j` weighted by `nrm n * nrm s` equals weighting each source's transformed features by `nrm s`,
    summing over the edges, and multiplying the total by `nrm n`. -/
theorem agg_forms (h : Fin 512 → Fin 128 → EReal) (r : Fin 2 → Fin 128 → EReal) (W : Fin 128 → Fin 128 → EReal)
    (n : Fin 512) (j : Fin 128) :
    (∑ e : Fin 2, ∑ s : Fin 512,
        if M e s n = 1#1 then (∑ k : Fin 128, (h s k * r e k) * W k j) * ((nrm M n * nrm M s) * 1) else 0)
      = (∑ e : Fin 2, ∑ s : Fin 512, ((∑ k : Fin 128, W k j * (h s k * r e k)) * nrm M s) * bit01 (M e s n)) * nrm M n := by
  rw [Cert.LibScaleSum.sum_mul_of_nonneg_ne_top _ _ _ (nrm_nonneg M n) (nrm_ne_top M n)]
  refine Finset.sum_congr rfl fun e _ => ?_
  rw [Cert.LibScaleSum.sum_mul_of_nonneg_ne_top _ _ _ (nrm_nonneg M n) (nrm_ne_top M n)]
  refine Finset.sum_congr rfl fun s _ => ?_
  have hk : (∑ k : Fin 128, (h s k * r e k) * W k j) = ∑ k : Fin 128, W k j * (h s k * r e k) :=
    Finset.sum_congr rfl fun k _ => mul_comm _ _
  by_cases hb : M e s n = 1#1
  · rw [if_pos hb, hb, bit01_one, hk, mul_one, mul_one, mul_comm (nrm M n) (nrm M s), mul_assoc]
  · rw [if_neg hb, eq_zero_of_bit hb, bit01_zero, mul_zero, zero_mul]

end Graph

end Cert.Spec

end
-- ==== Proof.LibFlatScatter.lean ====
/-
  An integer scatter-add into a flat array, and counting with it.

  A flat array `x` of `N` integers receives `E` updates: update `e` carries the integer `u e` and a signed
  index `I (e, 0)`; it is added to `x` at that index, and dropped when the index is not in `[0, N − 1]`. The
  updates are taken one after the other, each replacing one element by its sum with the update. Addition of
  machine integers is associative and commutative, so the order does not matter and the result at `n` is
    x n + the sum of u e over the updates e whose index is n.
  When every update is a single bit widened to 32 bits and there are fewer than 2^31 updates, that sum cannot
  wrap around: read as a signed integer it is the number of selected updates whose bit is one.

  The dimension numbers are the record `flatScatter` below, whose side conditions are a parameter: any record
  with the same lists is one of them by unfolding.
-/
import Mathlib.Data.BitVec
import Idealize.ShloMosaic.PureOps.Ideal
import Idealize.ShloMosaic.PureOps.ShapeOps
import Idealize.ShloMosaic.PureOps.Dims
import Idealize.ShloMosaic.Lib.ValueIdx
import Idealize.ShloMosaic.Lib.WordArith
import proofs.«113383_g81114752352452_cont_sun_c4_492_19_alg».proof.Proof.Spec

noncomputable section

open scoped BigOperators

namespace Cert.LibFlatScatter

open Idealize.ShloMosaic Idealize.ShloMosaic.ValueIdx

/-! ## Where an update lands -/

/-- The dimension numbers of a flat scatter: `E` scalar updates go into an operand of `N` elements at the
    positions named by scatter indices `[E, 1]` — the updates have no window axis, the operand's one axis is
    inserted and is the one the index names, the index vector lies along axis 1 of the indices. -/
abbrev flatScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Land
variable {N E w : Nat} (wf : ScatterDims.WF ⟨1, ![N]⟩ ⟨2, ![E, 1]⟩ ⟨1, ![E]⟩ [] [0] [0] 1)
  (I : IVec ⟨2, ![E, 1]⟩ w)

/-- The window of update `e` starts at the signed value of the index `I (e, 0)`. -/
theorem flatScatter_start (e : Fin E) :
    (flatScatter N E wf).start (ix1 e) I 0 = (I (ix2 e (0 : Fin 1))).toInt := by
  unfold ScatterDims.start
  rw [dif_pos (show (0 : Fin 1) ∈ (flatScatter N E wf).scatterDimsToOperandDims from List.mem_singleton.mpr rfl)]
  congr 2
  funext b
  refine Fin.ext ?_
  match b with
  | ⟨0, _⟩ => rfl
  | ⟨1, _⟩ => rfl

/-- The operand's one axis is inserted: the window coordinate there is 0. -/
theorem flatScatter_window (e : Fin E) :
    (flatScatter N E wf).window (ix1 e) 0 = 0 := by
  unfold ScatterDims.window
  rw [dif_neg (show (0 : Fin 1) ∉ Shape.kept ⟨1, ![N]⟩ [0] by simp [Shape.kept])]

/-- Update `e` lands on `n` exactly when its index, read signed, is `n`. -/
theorem flatScatter_resultIdx?_eq_some_iff (e : Fin E) (n : Fin N) :
    (flatScatter N E wf).resultIdx? (ix1 e) I = some (ix1 n)
      ↔ (I (ix2 e (0 : Fin 1))).toInt = (n.val : Int) := by
  have hs := flatScatter_start wf I e
  have hw := flatScatter_window wf e
  unfold ScatterDims.resultIdx?
  by_cases h : ∀ a : Fin 1, 0 ≤ (flatScatter N E wf).start (ix1 e) I a + ((flatScatter N E wf).window (ix1 e) a : Int)
      ∧ (flatScatter N E wf).start (ix1 e) I a + ((flatScatter N E wf).window (ix1 e) a : Int)
        < ((⟨1, ![N]⟩ : Shape).size a : Int)
  · rw [dif_pos h]
    have h0 := h 0
    rw [hs, hw] at h0
    constructor
    · intro hh
      have hh' := Option.some.inj hh
      have e0 := congrArg (fun k => (k 0).val) hh'
      simp only [hs, hw] at e0
      have : ((I (ix2 e (0 : Fin 1))).toInt + ((0 : Nat) : Int)).toNat = n.val := e0
      omega
    · intro ht
      congr 1
      funext a
      refine Fin.ext ?_
      match a with
      | ⟨0, _⟩ =>
        show ((flatScatter N E wf).start (ix1 e) I 0 + ((flatScatter N E wf).window (ix1 e) 0 : Int)).toNat = n.val
        rw [hs, hw]; omega
  · rw [dif_neg h]
    constructor
    · intro hh; exact absurd hh (by simp)
    · intro ht
      exfalso
      apply h
      intro a
      match a with
      | ⟨0, _⟩ =>
        show 0 ≤ (flatScatter N E wf).start (ix1 e) I 0 + ((flatScatter N E wf).window (ix1 e) 0 : Int)
          ∧ (flatScatter N E wf).start (ix1 e) I 0 + ((flatScatter N E wf).window (ix1 e) 0 : Int) < (N : Int)
        rw [hs, hw]; have := n.isLt; omega

end Land

/-! ## The fold of additions is a sum -/

section Fold
variable {ι κ M : Type} [DecidableEq ι] [AddCommMonoid M]

/-- Updates `n` of a list, each with a value `val n` and a target `tgt n` (or none), are taken one after the other,
    each step adding the update's value to the array's element at its target and leaving the other elements. The
    result at `j` is the array's element at `j` plus the sum of the values of the updates whose target is `j`. -/
theorem foldl_add_at_apply (tgt : κ → Option ι) (val : κ → M) (step : (ι → M) → κ → ι → M)
    (hstep : ∀ r n j, step r n j = r j + if tgt n = some j then val n else 0)
    (L : List κ) (x : ι → M) (j : ι) :
    L.foldl step x j = x j + (L.map fun n => if tgt n = some j then val n else 0).sum := by
  induction L generalizing x with
  | nil => simp
  | cons a L ih => rw [List.foldl_cons, ih, hstep, List.map_cons, List.sum_cons, add_assoc]

end Fold

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The integer scatter-add -/

section ScatterAdd
variable {N E w : Nat} (wf : ScatterDims.WF ⟨1, ![N]⟩ ⟨2, ![E, 1]⟩ ⟨1, ![E]⟩ [] [0] [0] 1)

/-- THE FLAT INTEGER SCATTER-ADD AT `n`: the operand's element plus the sum (in 32-bit words) of the updates whose
    index, read signed, is `n`. -/
theorem scatter_addi_apply (x : (⟨1, ![N]⟩ : Shape).Idx → BitVec 32) (I : IVec ⟨2, ![E, 1]⟩ w)
    (u : (⟨1, ![E]⟩ : Shape).Idx → BitVec 32) (n : Fin N) :
    Host.scatter (flatScatter N E wf) IntOp.addi x I u (ix1 n)
      = x (ix1 n) + ∑ e : Fin E, if (I (ix2 e (0 : Fin 1))).toInt = (n.val : Int) then u (ix1 e) else 0 := by
  unfold Host.scatter
  refine (foldl_add_at_apply
    (fun m => (flatScatter N E wf).resultIdx? ((⟨1, ![E]⟩ : Shape).rowMajor.symm m) I)
    (fun m => u ((⟨1, ![E]⟩ : Shape).rowMajor.symm m)) _ ?_ (List.finRange (⟨1, ![E]⟩ : Shape).numel) x (ix1 n)).trans ?_
  · intro r m j
    show _ = r j + if (flatScatter N E wf).resultIdx? ((⟨1, ![E]⟩ : Shape).rowMajor.symm m) I = some j
      then u ((⟨1, ![E]⟩ : Shape).rowMajor.symm m) else 0
    generalize (flatScatter N E wf).resultIdx? ((⟨1, ![E]⟩ : Shape).rowMajor.symm m) I = o
    cases o with
    | none => simp
    | some i =>
      by_cases hji : j = i
      · subst hji; simp [IntOp.addi]
      · have hne : ¬ (some i = some j) := fun h => hji (Option.some.inj h).symm
        simp [hji, hne]
  · congr 1
    rw [← Fin.sum_univ_def,
      Equiv.sum_comp (⟨1, ![E]⟩ : Shape).rowMajor.symm
        (fun i => if (flatScatter N E wf).resultIdx? i I = some (ix1 n) then u i else 0),
      sum_idx1]
    refine Finset.sum_congr rfl fun e _ => ?_
    simp only [flatScatter_resultIdx?_eq_some_iff]

end ScatterAdd

/-! ## Counting bits without wrapping -/

section Count

/-- A one-bit word, read as a natural number, is 1 when it is the word one and 0 otherwise. -/
theorem toNat_bit (b : BitVec 1) : b.toNat = if b = 1#1 then 1 else 0 := by
  have h := b.isLt
  by_cases hb : b = 1#1
  · subst hb; simp
  · rw [if_neg hb]
    have h1 : b.toNat ≠ 1 := fun h1 => hb (BitVec.eq_of_toNat_eq (by simpa using h1))
    omega

variable {E : Nat} (b : Fin E → BitVec 1) (p : Fin E → Prop) [DecidablePred p]

/-- The sum, in 32-bit words, of the selected bits widened to 32 bits is the word of their count: widening a
    bit gives the word of its value, and taking the word of a natural number respects sums. -/
theorem sum_bits_eq_ofNat :
    (∑ e : Fin E, if p e then (b e).setWidth 32 else 0 : BitVec 32)
      = BitVec.ofNat 32 (∑ e : Fin E, if p e then (b e).toNat else 0) := by
  rw [← BitVec.natCast_eq_ofNat, Nat.cast_sum]
  refine Finset.sum_congr rfl fun e _ => ?_
  by_cases hp : p e
  · rw [if_pos hp, if_pos hp, BitVec.natCast_eq_ofNat]
    apply BitVec.eq_of_toNat_eq
    simp [BitVec.toNat_setWidth]
  · rw [if_neg hp, if_neg hp]; simp

/-- The count of selected one bits is at most the number of updates. -/
theorem count_bits_le : (∑ e : Fin E, if p e then (b e).toNat else 0) ≤ E := by
  calc (∑ e : Fin E, if p e then (b e).toNat else 0) ≤ ∑ _e : Fin E, 1 :=
        Finset.sum_le_sum fun e _ => by
          have := (b e).isLt
          split <;> omega
    _ = E := by simp

/-- COUNTING DOES NOT WRAP: fewer than 2^31 bits, each widened to 32 bits, are added in 32-bit words; the sum read
    as a signed integer is the number of selected bits that are one. -/
theorem toInt_sum_bits (hE : E < 2 ^ 31) :
    (((∑ e : Fin E, if p e then (b e).setWidth 32 else 0 : BitVec 32).toInt : ℤ) : ℝ)
      = ∑ e : Fin E, if p e then (if b e = 1#1 then (1 : ℝ) else 0) else 0 := by
  rw [sum_bits_eq_ofNat, WordArith.toInt_ofNat_small _ (lt_of_le_of_lt (count_bits_le b p) hE)]
  push_cast
  refine Finset.sum_congr rfl fun e _ => ?_
  by_cases hp : p e
  · simp only [if_pos hp, toNat_bit]
    split <;> simp
  · simp only [if_neg hp]

/-- The inclusion of the reals in the extended reals respects finite sums. -/
theorem coe_sum_ereal {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The same in the extended reals: the signed reading of the 32-bit sum, as an extended real, is the sum of the
    selected bits, each as the number 0 or 1. -/
theorem toInt_sum_bits_ereal (hE : E < 2 ^ 31) :
    ((((∑ e : Fin E, if p e then (b e).setWidth 32 else 0 : BitVec 32).toInt : ℤ) : ℝ) : EReal)
      = ∑ e : Fin E, if p e then (if b e = 1#1 then (1 : EReal) else 0) else 0 := by
  rw [toInt_sum_bits b p hE, coe_sum_ereal]
  refine Finset.sum_congr rfl fun e _ => ?_
  by_cases hp : p e
  · simp only [if_pos hp]
    split <;> simp
  · simp only [if_neg hp]; simp

/-- The same with each bit written as the number `Cert.Spec.bit01` makes of it. -/
theorem count_bit01 (hE : E < 2 ^ 31) :
    ((((∑ e : Fin E, if p e then (b e).setWidth 32 else 0 : BitVec 32).toInt : ℤ) : ℝ) : EReal)
      = ∑ e : Fin E, if p e then Cert.Spec.bit01 (b e) else 0 :=
  toInt_sum_bits_ereal b p hE

end Count

end Cert.LibFlatScatter

end
-- ==== Proof.LibGatherFlat.lean ====
/-
  A gather of single entries of a flat array.

  The operand is a rank-1 array of `N` entries, the start indices are a column `[E, 1]` (one signed integer per
  result entry), the result is a rank-1 array of `E` entries: result entry `e` is the operand's entry at the start
  index `J (e, 0)`, read as a signed integer and brought into `[0, N − 1]`. This is the row gather of an array of
  `N` rows with the column axis removed, and it reads the same row: `Cert.LibColumns.gatherRow J hN e`.

  The dimension numbers are the record `flatGather` below (no offset axes; operand axis 0 collapsed and named by
  the index; the index vector along axis 1 of the start indices; slices of one entry), whose side conditions are
  a parameter: any record with the same lists is this one by `rfl`.
-/
import Idealize.ShloMosaic.PureOps.Ideal
import Idealize.ShloMosaic.PureOps.ShapeOps
import Idealize.ShloMosaic.PureOps.Dims
import Idealize.ShloMosaic.Lib.ValueIdx
import proofs.«113383_g81114752352452_cont_sun_c4_492_19_alg».proof.Proof.LibColumns

noncomputable section

namespace Cert.LibGatherFlat

open Idealize.ShloMosaic Idealize.ShloMosaic.ValueIdx

/-- The dimension numbers of a gather of single entries: result `[E]` reads an operand `[N]` at the entries named
    by start indices `[E, 1]` — the result has no offset axis, the operand's axis 0 is collapsed and is the one the
    index names, slices are one entry, the index vector lies along axis 1 of the indices. -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section Gather
variable {α : Type} {N E w : Nat}
  (wf : GatherDims.WF ⟨1, ![N]⟩ ⟨2, ![E, 1]⟩ ⟨1, ![E]⟩ [] [0] [] [0] [] 1 ![1])
  (J : IVec ⟨2, ![E, 1]⟩ w)

/-- The operand index of result entry `e` is the entry `gatherRow e`: the start index `J (e, 0)` as a signed
    integer, brought into `[0, N − 1]`. -/
theorem flatGather_operandIdx (hN : 0 < N) (e : Fin E) :
    (flatGather N E wf).operandIdx (ix1 e) J = ix1 (Cert.LibColumns.gatherRow J hN e) := by
  funext a
  obtain rfl : a = 0 := Subsingleton.elim _ _
  refine Fin.ext ?_
  show (flatGather N E wf).start (ix1 e) J 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF SINGLE ENTRIES AT `e`: the operand at the entry `gatherRow e`. -/
theorem gather_flat_apply (hN : 0 < N) (x : (⟨1, ![N]⟩ : Shape).Idx → α) (e : Fin E) :
    Host.gather (flatGather N E wf) x J (ix1 e) = x (ix1 (Cert.LibColumns.gatherRow J hN e)) := by
  unfold Host.gather
  rw [flatGather_operandIdx wf J hN e]

end Gather

end Cert.LibGatherFlat

end
-- ==== Proof.RDeg.lean ====
/-
  The reference's in-degrees, normalisation and edge weights.

  The reference counts, for every node `t`, the valid slots whose target is `t` (an integer scatter-add of the
  validity bits, invalid slots adding `0` at node 0), converts the count to a float, raises it to the power `-1/2`
  where it is positive and puts `0` elsewhere. The count is the in-degree `deg`, a positive real to the power `-1/2` is
  the inverse of its square root, so the result is `nrm`. The weight of a slot is the product of the normalisations
  of its target and source and of its validity bit.
-/
import proofs.«113383_g81114752352452_cont_sun_c4_492_19_alg».proof.Proof.REdges
import proofs.«113383_g81114752352452_cont_sun_c4_492_19_alg».proof.Proof.Algebra
import proofs.«113383_g81114752352452_cont_sun_c4_492_19_alg».proof.Proof.LibFlatScatter
import proofs.«113383_g81114752352452_cont_sun_c4_492_19_alg».proof.Proof.LibGatherFlat
import Idealize.ShloMosaic.PureOps.Ideal.Laws

noncomputable section

open scoped BigOperators

namespace Cert.RefDeg

open Cert.ReferenceIdeal Cert.ReferenceIdeal.Gen Cert.ReferenceIdeal.ReadP Idealize.ShloMosaic Idealize.ShloMosaic.ValueIdx
open Cert.RefEdges Cert.Spec

/-- The single-precision word `0xBF000000` is minus one half. -/
theorem ofBits_neg_half : Ideal.ofBits .f32 0xBF000000#32 = ((-(1 / 2) : ℝ) : EReal) := by
  simp [Ideal.ofBits, Ideal.ieee, -EReal.coe_mul, -EReal.coe_neg]; norm_num

/-- A positive real to the power minus one half is the inverse of its square root. -/
theorem pow_neg_half (c : ℝ) (hc : 0 < c) :
    Ideal.pow (c : EReal) (Ideal.ofBits .f32 0xBF000000#32) = Ideal.rsqrt (c : EReal) := by
  rw [ofBits_neg_half, Ideal.pow_coe_coe, Ideal.rsqrt_coe, if_neg (not_lt.mpr hc.le), if_neg hc.ne']
  congr 1
  show c ^ (-(1 / 2) : ℝ) = (Real.sqrt c)⁻¹
  rw [Real.rpow_neg hc.le, Real.sqrt_eq_rpow]

/-- A sum over the targets `t'` of terms that vanish at an unset bit, restricted to the slots whose named target
    (`t'` at a set bit, node 0 otherwise) is `t`, is the term at `t`. -/
theorem sum_pick {A : Type*} [AddCommMonoid A] (b : Fin 512 → BitVec 1) (g : Fin 512 → A)
    (hg : ∀ t', ¬ b t' = 1#1 → g t' = 0) (t : Fin 512) :
    (∑ t' : Fin 512, if ((pick (b t') t').val : Int) = (t.val : Int) then g t' else 0) = g t := by
  have h : ∀ t' : Fin 512, (if ((pick (b t') t').val : Int) = (t.val : Int) then g t' else 0)
      = if t' = t then g t' else 0 := fun t' => by
    by_cases hb : b t' = 1#1
    · have hp : pick (b t') t' = t' := by unfold pick; rw [if_pos hb]
      rw [hp]
      by_cases ht : t' = t
      · rw [if_pos ht, if_pos (by rw [ht])]
      · rw [if_neg ht, if_neg (fun h' => ht (Fin.ext (by omega)))]
    · rw [hg t' hb]; simp
  rw [Finset.sum_congr rfl fun t' _ => h t', Finset.sum_ite_eq' Finset.univ t g, if_pos (Finset.mem_univ t)]

variable (x1 : (⟨S2x512x512, .f32⟩ : BufTy).Contents (Elt Ideal))

/-- The count of valid slots into `t`, as a float, is the in-degree. -/
theorem v36_apply (t : Fin 512) : val_main_v36 (F := Ideal) x1 (ix1 t) = deg (maskOf x1) t := by
  rw [val_main_v36_apply]
  have h35 : val_main_v35 (F := Ideal) x1 (ix1 t)
      = ∑ E : Fin 524288, if (val_main_v34 (F := Ideal) x1 (ix2 E (0 : Fin 1))).toInt = (t.val : Int)
          then (val_main_v26 (F := Ideal) x1 (ix1 E)).setWidth 32 else 0 := by
    unfold val_main_v35
    refine (Cert.LibFlatScatter.scatter_addi_apply (N := 512) (E := 524288)
      scatter_S512_S524288x1_S524288_n_0_0_1_wf _ _ _ t).trans ?_
    rw [val_main_v27_apply]
    show (0#32 : BitVec 32) + _ = _
    rw [BitVec.zero_add]
    rfl
  rw [h35]
  show ((((∑ E : Fin 524288, if (val_main_v34 (F := Ideal) x1 (ix2 E (0 : Fin 1))).toInt = (t.val : Int)
          then (val_main_v26 (F := Ideal) x1 (ix1 E)).setWidth 32 else 0 : BitVec 32).toInt : ℝ)) : EReal) = _
  rw [Cert.LibFlatScatter.count_bit01 (fun E : Fin 524288 => val_main_v26 (F := Ideal) x1 (ix1 E))
    (fun E : Fin 524288 => (val_main_v34 (F := Ideal) x1 (ix2 E (0 : Fin 1))).toInt = (t.val : Int)) (by norm_num)]
  rw [sum_slots]
  unfold deg
  refine Finset.sum_congr rfl fun e _ => ?_
  refine Finset.sum_congr rfl fun s _ => ?_
  simp only [tgt34, v26_slot]
  exact sum_pick (fun t' => maskOf x1 e s t') (fun t' => bit01 (maskOf x1 e s t'))
    (fun t' h => by rw [eq_zero_of_bit h, bit01_zero]) t

/-- The reference's normalisation is `nrm`. -/
theorem v41_apply (t : Fin 512) : val_main_v41 (F := Ideal) x1 (ix1 t) = nrm (maskOf x1) t := by
  rw [val_main_v41_apply, val_main_v38_apply, val_main_v40_apply, v36_apply, val_main_v37_apply, val_main_cst_9_apply,
    val_main_v39_apply, val_main_cst_10_apply, val_main_call4_v1_apply]
  show Scalar.select (Ideal.cmp .ogt (deg (maskOf x1) t) (Ideal.ofBits .f32 0x00000000#32))
    (Ideal.pow (deg (maskOf x1) t) (Ideal.ofBits .f32 0xBF000000#32)) (Ideal.ofBits .f32 0x00000000#32) = _
  rw [Ideal.ofBits_zero_f32]
  unfold nrm
  by_cases hpos : 0 < deg (maskOf x1) t
  · have hc : Ideal.cmp .ogt (deg (maskOf x1) t) 0 = 1#1 := by
      unfold Ideal.cmp; simp [hpos]
    rw [hc, select_one, if_pos hpos]
    have hr : 0 < degR (maskOf x1) t := by
      have := hpos; rw [deg_eq_coe] at this; exact_mod_cast this
    rw [deg_eq_coe]
    exact pow_neg_half _ hr
  · have hc : Ideal.cmp .ogt (deg (maskOf x1) t) 0 = 0#1 := by
      unfold Ideal.cmp; simp [hpos]
    rw [hc, select_zero, if_neg hpos]

/-- A validity bit converted to a float is the bit as a number. -/
theorem uitofp_bit (b : BitVec 1) : FloatOps.uitofp (F := Ideal) .f32 b = bit01 b := by
  show (((b.toNat : ℝ)) : EReal) = bit01 b
  by_cases hb : b = 1#1
  · rw [hb, bit01_one]; norm_num
  · rw [eq_zero_of_bit hb, bit01_zero]; norm_num

/-- The weight of a slot: the normalisations of its named target and source, times its validity bit. -/
theorem v58_slot (e : Fin 2) (s t : Fin 512) :
    val_main_v58 (F := Ideal) x1 (ix1 (slot e s t))
      = (nrm (maskOf x1) (pick (maskOf x1 e s t) t) * nrm (maskOf x1) (pick (maskOf x1 e s t) s))
          * bit01 (maskOf x1 e s t) := by
  rw [val_main_v58_apply, val_main_v56_apply, val_main_v57_apply, v26_slot, uitofp_bit]
  have h48 : val_main_v48 (F := Ideal) x1 (ix1 (slot e s t)) = nrm (maskOf x1) (pick (maskOf x1 e s t) t) := by
    unfold val_main_v48
    refine (Cert.LibGatherFlat.gather_flat_apply (N := 512) (E := 524288)
      gather_S512_S524288x1_S524288_n_0_n_n_0_1_1_wf (val_main_v47 (F := Ideal) x1) (by decide) _ (slot e s t)).trans ?_
    rw [row47, v41_apply]
  have h55 : val_main_v55 (F := Ideal) x1 (ix1 (slot e s t)) = nrm (maskOf x1) (pick (maskOf x1 e s t) s) := by
    unfold val_main_v55
    refine (Cert.LibGatherFlat.gather_flat_apply (N := 512) (E := 524288)
      gather_S512_S524288x1_S524288_n_0_n_n_0_1_1_wf (val_main_v54 (F := Ideal) x1) (by decide) _ (slot e s t)).trans ?_
    rw [row54, v41_apply]
  rw [h48, h55]
  rfl

end Cert.RefDeg

end
-- ==== Proof.RSteps.lean ====
/-
  The reference's two layers are the specification's layers.

  With the edge list read slot by slot, the aggregate of a layer at node `n` is the sum over relations `e` and sources
  `s` with an edge into `n` of the transformed message weighted by `nrm n * nrm s`; the self-loop term and the bias
  are read directly; the hyperbolic tangent is the same function on both sides.
-/
import proofs.«113383_g81114752352452_cont_sun_c4_492_19_alg».proof.Proof.RLayer
import proofs.«113383_g81114752352452_cont_sun_c4_492_19_alg».proof.Proof.RDeg

noncomputable section

open scoped BigOperators

namespace Cert.RefSteps

open Cert.ReferenceIdeal Cert.ReferenceIdeal.Gen Cert.ReferenceIdeal.ReadP Idealize.ShloMosaic Idealize.ShloMosaic.ValueIdx
open Cert.RefEdges Cert.Spec Cert.LibColumns

variable (x1 : (⟨S2x512x512, .f32⟩ : BufTy).Contents (Elt Ideal))

/-- THE AGGREGATE OVER THE EDGE LIST, for index columns that name, slot by slot, the picked target, the picked
    source and the relation, and for the reference's edge weights: it is the specification's neighbour sum. -/
theorem agg_eq (h : FVec Ideal S512x128 .f32) (r : FVec Ideal S4x128 .f32) (W : FVec Ideal S128x128 .f32)
    (JS JE JT : IVec S524288x1 32)
    (hT : ∀ e s t, (JT (ix2 (slot e s t) (0 : Fin 1))).toInt = ((pick (maskOf x1 e s t) t).val : Int))
    (hS : ∀ e s t, gatherRow JS (by decide : 0 < 512) (slot e s t) = pick (maskOf x1 e s t) s)
    (hE : ∀ (e : Fin 2) (s t : Fin 512), gatherRow JE (by decide : 0 < 4) (slot e s t) = (⟨e.val, by have := e.isLt; omega⟩ : Fin 4))
    (n : Fin 512) (j : Fin 128) :
    (∑ E : Fin 524288, if (JT (ix2 E (0 : Fin 1))).toInt = (n.val : Int) then
        (∑ k : Fin 128, (h (ix2 (gatherRow JS (by decide : 0 < 512) E) k) * r (ix2 (gatherRow JE (by decide : 0 < 4) E) k))
          * W (ix2 k j)) * val_main_v58 (F := Ideal) x1 (ix1 E) else 0)
      = (∑ e : Fin 2, ∑ s : Fin 512,
          ((∑ k : Fin 128, W (ix2 k j) * (h (ix2 s k) * r (ix2 (⟨e.val, by have := e.isLt; omega⟩ : Fin 4) k)))
            * nrm (maskOf x1) s) * bit01 (maskOf x1 e s n)) * nrm (maskOf x1) n := by
  rw [sum_slots]
  rw [← agg_forms (maskOf x1) (fun s k => h (ix2 s k)) (fun e k => r (ix2 (⟨e.val, by have := e.isLt; omega⟩ : Fin 4) k))
    (fun k j => W (ix2 k j)) n j]
  refine Finset.sum_congr rfl fun e _ => ?_
  refine Finset.sum_congr rfl fun s _ => ?_
  simp only [hT, hS, hE, Cert.RefDeg.v58_slot]
  rw [Cert.RefDeg.sum_pick (fun t' => maskOf x1 e s t')
    (fun t' => (∑ k : Fin 128, (h (ix2 (pick (maskOf x1 e s t') s) k) * r (ix2 (⟨e.val, by have := e.isLt; omega⟩ : Fin 4) k)) * W (ix2 k j))
      * ((nrm (maskOf x1) (pick (maskOf x1 e s t') t') * nrm (maskOf x1) (pick (maskOf x1 e s t') s)) * bit01 (maskOf x1 e s t')))
    (fun t' hb => by rw [eq_zero_of_bit hb, bit01_zero, mul_zero, mul_zero]) n]
  by_cases hb : maskOf x1 e s n = 1#1
  · have hp1 : pick (maskOf x1 e s n) s = s := by unfold pick; rw [if_pos hb]
    have hp2 : pick (maskOf x1 e s n) n = n := by unfold pick; rw [if_pos hb]
    rw [if_pos hb, hp1, hp2, hb, bit01_one]
  · rw [if_neg hb, eq_zero_of_bit hb, bit01_zero, mul_zero, mul_zero]

end Cert.RefSteps

end
-- ==== Proof.RRef.lean ====
/-
  The reference is the specification.

  Each layer of the reference is read at a node `n` and a feature `j`: the aggregate over the edge list (the neighbour
  sum), the self-loop product, the bias row and the hyperbolic tangent; the relation embeddings are multiplied by the
  relation matrix between the layers. The leaves are slices of the argument arrays.
-/
import proofs.«113383_g81114752352452_cont_sun_c4_492_19_alg».proof.Proof.RSteps

noncomputable section

open scoped BigOperators

namespace Cert.RefOut

open Cert.ReferenceIdeal Cert.ReferenceIdeal.Gen Cert.ReferenceIdeal.ReadP Idealize.ShloMosaic Idealize.ShloMosaic.ValueIdx
open Cert.RefEdges Cert.Spec Cert.LibColumns

/-! ## The leaves -/

/-- Matrix 0 of a stack of two 128 x 128 matrices. -/
theorem mat0 (x : FVec Ideal S2x128x128 .f32) (k j : Fin 128) :
    val_main_v75 (F := Ideal) x (ix2 k j) = x (ix3 (0 : Fin 2) k j) := by
  rw [val_main_v75_apply, val_main_v74_apply]
  congr 1
  have := k.isLt; have := j.isLt
  funext a; refine Fin.ext ?_
  match a with
  | ⟨0, _⟩ => rfl
  | ⟨1, _⟩ =>
    show (k.val * 128 + j.val) / 128 % 128 = k.val
    omega
  | ⟨2, _⟩ =>
    show (k.val * 128 + j.val) % 128 = j.val
    omega

/-- Matrix 1 of a stack of two 128 x 128 matrices. -/
theorem mat1 (x : FVec Ideal S2x128x128 .f32) (k j : Fin 128) :
    val_main_v121 (F := Ideal) x (ix2 k j) = x (ix3 (1 : Fin 2) k j) := by
  rw [val_main_v121_apply, val_main_v120_apply]
  congr 1
  have := k.isLt; have := j.isLt
  funext a; refine Fin.ext ?_
  match a with
  | ⟨0, _⟩ => rfl
  | ⟨1, _⟩ =>
    show (k.val * 128 + j.val) / 128 % 128 = k.val
    omega
  | ⟨2, _⟩ =>
    show (k.val * 128 + j.val) % 128 = j.val
    omega

/-- The self-loop relation of layer 0, spread over the nodes. -/
theorem loopRel0 (x7 : FVec Ideal S2x1x128 .f32) (n : Fin 512) (k : Fin 128) :
    val_main_v90 (F := Ideal) x7 (ix2 n k) = x7 (ix3 (0 : Fin 2) (0 : Fin 1) k) := by
  rw [val_main_v90_apply, val_main_v89_apply, val_main_v88_apply]
  congr 1
  have := k.isLt
  funext a; refine Fin.ext ?_
  match a with
  | ⟨0, _⟩ => rfl
  | ⟨1, _⟩ => rfl
  | ⟨2, _⟩ =>
    show (0 * 128 + k.val) % 128 = k.val
    omega

/-- The self-loop relation of layer 1, spread over the nodes. -/
theorem loopRel1 (x7 : FVec Ideal S2x1x128 .f32) (n : Fin 512) (k : Fin 128) :
    val_main_v136 (F := Ideal) x7 (ix2 n k) = x7 (ix3 (1 : Fin 2) (0 : Fin 1) k) := by
  rw [val_main_v136_apply, val_main_v135_apply, val_main_v134_apply]
  congr 1
  have := k.isLt
  funext a; refine Fin.ext ?_
  match a with
  | ⟨0, _⟩ => rfl
  | ⟨1, _⟩ => rfl
  | ⟨2, _⟩ =>
    show (0 * 128 + k.val) % 128 = k.val
    omega

/-- The bias row of layer 0, spread over the nodes. -/
theorem bias0 (x6 : FVec Ideal S2x128 .f32) (n : Fin 512) (j : Fin 128) :
    val_main_v99 (F := Ideal) x6 (ix2 n j) = x6 (ix2 (0 : Fin 2) j) := by
  rw [val_main_v99_apply, val_main_v98_apply, val_main_v97_apply, val_main_v96_apply]
  congr 1
  have := j.isLt
  funext a; refine Fin.ext ?_
  match a with
  | ⟨0, _⟩ => rfl
  | ⟨1, _⟩ =>
    show j.val % 128 = j.val
    omega

/-- The bias row of layer 1, spread over the nodes. -/
theorem bias1 (x6 : FVec Ideal S2x128 .f32) (n : Fin 512) (j : Fin 128) :
    val_main_v145 (F := Ideal) x6 (ix2 n j) = x6 (ix2 (1 : Fin 2) j) := by
  rw [val_main_v145_apply, val_main_v144_apply, val_main_v143_apply, val_main_v142_apply]
  congr 1
  have := j.isLt
  funext a; refine Fin.ext ?_
  match a with
  | ⟨0, _⟩ => rfl
  | ⟨1, _⟩ =>
    show j.val % 128 = j.val
    omega

/-! ## One layer, for any operands -/

/-- The hyperbolic tangent of a sum of three arrays, read at an entry. -/
theorem tanh_add_add (A B C : FVec Ideal S512x128 .f32) (i : S512x128.Idx) :
    Host.tanh (F := Ideal) (addf (addf A B) C) i = Ideal.tanh ((A i + B i) + C i) := rfl

variable (x1 : (⟨S2x512x512, .f32⟩ : BufTy).Contents (Elt Ideal))

/-- A LAYER OF THE REFERENCE AT `(n, j)`, for any feature array `h`, relation array `r`, matrices `W`, `Wl`, spread
    self-loop relation `lrA` and spread bias `biasA`, over index columns that name the picked target, the picked
    source and the relation of every slot. -/
theorem ref_layer (h : FVec Ideal S512x128 .f32) (r : FVec Ideal S4x128 .f32) (W Wl : FVec Ideal S128x128 .f32)
    (lrA biasA : FVec Ideal S512x128 .f32) (JS JE JT : IVec S524288x1 32)
    (hT : ∀ e s t, (JT (ix2 (slot e s t) (0 : Fin 1))).toInt = ((pick (maskOf x1 e s t) t).val : Int))
    (hS : ∀ e s t, gatherRow JS (by decide : 0 < 512) (slot e s t) = pick (maskOf x1 e s t) s)
    (hE : ∀ (e : Fin 2) (s t : Fin 512), gatherRow JE (by decide : 0 < 4) (slot e s t) = (⟨e.val, by have := e.isLt; omega⟩ : Fin 4))
    (n : Fin 512) (j : Fin 128) :
    Host.tanh (F := Ideal) (addf (addf
        (Host.scatterAdd (F := Ideal) scatter_S512x128_S524288x1_S524288x128_1_0_0_1
          (broadcastInDim S512x128 ![] bcast_S_S512x128 (constant (F := Ideal) S_ .f32 0x00000000#32)) JT
          (mulf (Host.dotGeneral (F := Ideal) dot_S524288x128_S128x128_S524288x128_1_0_0_1_n_n none
              (mulf (Host.gather gather_S512x128_S524288x1_S524288x128_1_0_n_n_0_1_1128 h JS)
                (Host.gather gather_S4x128_S524288x1_S524288x128_1_0_n_n_0_1_1128 r JE)) W)
            (broadcastInDim S524288x128 ![0, 1] bcast_S524288x1_S524288x128_0_1
              (broadcastInDim S524288x1 ![0] bcast_S524288_S524288x1_0 (val_main_v58 (F := Ideal) x1)))))
        (Host.dotGeneral (F := Ideal) dot_S512x128_S128x128_S512x128_1_0_0_1_n_n none (mulf h lrA) Wl)) biasA) (ix2 n j)
      = layer (maskOf x1) (fun s k => h (ix2 s k)) (fun e k => r (ix2 (⟨e.val, by have := e.isLt; omega⟩ : Fin 4) k))
          (fun k j => W (ix2 k j)) (fun k j => Wl (ix2 k j)) (fun j => biasA (ix2 n j)) (fun k => lrA (ix2 n k)) n j := by
  have hA := (Cert.RefLayer.agg_apply h r W JS JE JT (val_main_v58 (F := Ideal) x1) n j).trans
    (Cert.RefSteps.agg_eq x1 h r W JS JE JT hT hS hE n j)
  have hB : Host.dotGeneral (F := Ideal) dot_S512x128_S128x128_S512x128_1_0_0_1_n_n none (mulf h lrA) Wl (ix2 n j)
      = ∑ k : Fin 128, Wl (ix2 k j) * (h (ix2 n k) * lrA (ix2 n k)) := by
    refine (Cert.LibHostDot.hostDot_apply (R := 512) (K := 128) (C := 128)
      dot_S512x128_S128x128_S512x128_1_0_0_1_n_n_wf none (mulf h lrA) Wl n j).trans ?_
    refine Finset.sum_congr rfl fun k _ => ?_
    rw [mulf_apply, mul_comm]
  rw [tanh_add_add, hA, hB]
  rfl

end Cert.RefOut

end
-- ==== Proof.RTop.lean ====
/-
  The reference's result is the specification's `out`.
-/
import proofs.«113383_g81114752352452_cont_sun_c4_492_19_alg».proof.Proof.RRef

noncomputable section

open scoped BigOperators

namespace Cert.RefOut

open Cert.ReferenceIdeal Cert.ReferenceIdeal.Gen Cert.ReferenceIdeal.ReadP Idealize.ShloMosaic Idealize.ShloMosaic.ValueIdx
open Cert.RefEdges Cert.Spec Cert.LibColumns

variable (x0 : FVec Ideal S512x128 .f32) (x1 : FVec Ideal S2x512x512 .f32) (x2 : FVec Ideal S4x128 .f32)
  (x3 x4 x5 : FVec Ideal S2x128x128 .f32) (x6 : FVec Ideal S2x128 .f32) (x7 : FVec Ideal S2x1x128 .f32)

/-- The first layer of the reference. -/
theorem layer1 (n : Fin 512) (j : Fin 128) :
    val_main_v101 (F := Ideal) x0 x1 x2 x3 x4 x6 x7 (ix2 n j)
      = layer (maskOf x1) (fun s k => x0 (ix2 s k)) (fun e k => x2 (ix2 (⟨e.val, by have := e.isLt; omega⟩ : Fin 4) k))
          (fun k j => x3 (ix3 (0 : Fin 2) k j)) (fun k j => x4 (ix3 (0 : Fin 2) k j))
          (fun j => x6 (ix2 (0 : Fin 2) j)) (fun k => x7 (ix3 (0 : Fin 2) (0 : Fin 1) k)) n j := by
  refine (ref_layer x1 x0 x2 (val_main_v75 (F := Ideal) x3) (val_main_v75 (F := Ideal) x4) (val_main_v90 (F := Ideal) x7)
    (val_main_v99 (F := Ideal) x6) (val_main_v64 (F := Ideal) x1) (val_main_v71 (F := Ideal)) (val_main_v86 (F := Ideal) x1)
    (tgt86 x1) (row64 x1) row71 n j).trans ?_
  simp only [mat0, loopRel0, bias0]

/-- The relation embeddings after the first layer. -/
theorem rel1 (ρ : Fin 4) (j : Fin 128) :
    val_main_v104 (F := Ideal) x2 x5 (ix2 ρ j) = ∑ k : Fin 128, x5 (ix3 (0 : Fin 2) k j) * x2 (ix2 ρ k) := by
  refine (Cert.LibHostDot.hostDot_apply (R := 4) (K := 128) (C := 128)
    dot_S4x128_S128x128_S4x128_1_0_0_1_n_n_wf none x2 (val_main_v75 (F := Ideal) x5) ρ j).trans ?_
  refine Finset.sum_congr rfl fun k _ => ?_
  rw [mat0, mul_comm]

/-- The second layer of the reference, over the first layer's result and the updated relation embeddings. -/
theorem layer2 (n : Fin 512) (j : Fin 128) :
    val_main_v147 (F := Ideal) x0 x1 x2 x3 x4 x5 x6 x7 (ix2 n j)
      = layer (maskOf x1) (fun s k => val_main_v101 (F := Ideal) x0 x1 x2 x3 x4 x6 x7 (ix2 s k))
          (fun e k => val_main_v104 (F := Ideal) x2 x5 (ix2 (⟨e.val, by have := e.isLt; omega⟩ : Fin 4) k))
          (fun k j => x3 (ix3 (1 : Fin 2) k j)) (fun k j => x4 (ix3 (1 : Fin 2) k j))
          (fun j => x6 (ix2 (1 : Fin 2) j)) (fun k => x7 (ix3 (1 : Fin 2) (0 : Fin 1) k)) n j := by
  refine (ref_layer x1 (val_main_v101 (F := Ideal) x0 x1 x2 x3 x4 x6 x7) (val_main_v104 (F := Ideal) x2 x5)
    (val_main_v121 (F := Ideal) x3) (val_main_v121 (F := Ideal) x4) (val_main_v136 (F := Ideal) x7)
    (val_main_v145 (F := Ideal) x6) (val_main_v110 (F := Ideal) x1) (val_main_v117 (F := Ideal)) (val_main_v132 (F := Ideal) x1)
    (tgt132 x1) (row110 x1) row117 n j).trans ?_
  simp only [mat1, loopRel1, bias1]

/-- THE REFERENCE'S RESULT at node `n`, feature `j`. -/
theorem ref_out (n : Fin 512) (j : Fin 128) :
    val_main_v147 (F := Ideal) x0 x1 x2 x3 x4 x5 x6 x7 (ix2 n j) = out x0 x1 x2 x3 x4 x5 x6 x7 n j := by
  have h1 : (fun s k => val_main_v101 (F := Ideal) x0 x1 x2 x3 x4 x6 x7 (ix2 s k))
      = layer (maskOf x1) (fun s k => x0 (ix2 s k)) (fun e k => x2 (ix2 (⟨e.val, by have := e.isLt; omega⟩ : Fin 4) k))
          (fun k j => x3 (ix3 (0 : Fin 2) k j)) (fun k j => x4 (ix3 (0 : Fin 2) k j))
          (fun j => x6 (ix2 (0 : Fin 2) j)) (fun k => x7 (ix3 (0 : Fin 2) (0 : Fin 1) k)) := by
    funext s k; exact layer1 x0 x1 x2 x3 x4 x6 x7 s k
  have h2 : (fun (e : Fin 2) k => val_main_v104 (F := Ideal) x2 x5 (ix2 (⟨e.val, by have := e.isLt; omega⟩ : Fin 4) k))
      = relStep (fun e k => x2 (ix2 (⟨e.val, by have := e.isLt; omega⟩ : Fin 4) k)) (fun k j => x5 (ix3 (0 : Fin 2) k j)) := by
    funext e k; exact rel1 x2 x5 _ k
  rw [layer2, h1, h2]
  rfl

end Cert.RefOut

end
-- ==== Proof.RRun.lean ====
/-
  The reference's run, with its result named by the specification.
-/
import proofs.«113383_g81114752352452_cont_sun_c4_492_19_alg».proof.Proof.RTop

noncomputable section

namespace Cert.RefOut

open Cert.ReferenceIdeal Cert.ReferenceIdeal.Gen Cert.ReferenceIdeal.ReadP Idealize.ShloMosaic Idealize.ShloMosaic.TcCoe
open Idealize.SL.Sem Idealize.ShloMosaic.ValueIdx

/-- Every weakly fair execution of the reference ends with its result array at `Spec.out` of its argument arrays,
    entry by entry, and with the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147)
          = (fun i : S512x128.Idx => Cert.Spec.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans ((val_main_v147_eq m c).trans (funext fun i => by
      obtain ⟨n, j, rfl⟩ : ∃ (n : Fin 512) (j : Fin 128), i = ix2 n j := ⟨i 0, i 1, eq_ix2 i⟩
      exact ref_out _ _ _ _ _ _ _ _ n j)), (h c).2⟩)
    (Cert.ReferenceIdeal.ValueP.run (F := Ideal) m ρ)

end Cert.RefOut

end
-- ==== Proof.lean ====
/-
  The proof of `Cert.Claim`.

  Both idealized programs compute a two-layer graph convolution with relation embeddings on 512 nodes: an edge of
  relation `e` from `s` to `t` is present when the adjacency entry exceeds one half; every layer sums, over the edges
  into a node, the transformed product of the source's features and the relation's embedding, weighted by the inverse
  square roots of the two in-degrees, adds a self-loop term and a bias, and applies the hyperbolic tangent.
  The kernel does this with dense masked matrix products in transposed form; the reference expands all 2 * 512 * 512
  possible edges into a list, gathers, multiplies and scatter-adds. Both results are `Cert.Spec.out` of the argument
  arrays (Proof/Spec.lean): the kernel's by Proof/KRun.lean, the reference's by Proof/RRun.lean. The two arrangements
  of the neighbour sum agree because the normalisation is a non-negative real number (Proof/Algebra.lean), and a
  positive real to the power minus one half is the inverse of its square root (Proof/RDeg.lean); no finiteness of the
  inputs is needed. The frames are the generated ones; the kernel's idealization rewrote nothing.
-/
import proofs.«113383_g81114752352452_cont_sun_c4_492_19_alg».proof.Defs
import proofs.«113383_g81114752352452_cont_sun_c4_492_19_alg».proof.Proof.Gen.Kernel
import proofs.«113383_g81114752352452_cont_sun_c4_492_19_alg».proof.Proof.Gen.Kernel.Skeleton
import proofs.«113383_g81114752352452_cont_sun_c4_492_19_alg».proof.Proof.Gen.Kernel.Launch
import proofs.«113383_g81114752352452_cont_sun_c4_492_19_alg».proof.Proof.Gen.Kernel.Points
import proofs.«113383_g81114752352452_cont_sun_c4_492_19_alg».proof.Proof.Gen.Kernel.Frame
import proofs.«113383_g81114752352452_cont_sun_c4_492_19_alg».proof.Proof.Gen.KernelIdeal
import proofs.«113383_g81114752352452_cont_sun_c4_492_19_alg».proof.Proof.Gen.KernelIdeal.Skeleton
import proofs.«113383_g81114752352452_cont_sun_c4_492_19_alg».proof.Proof.Gen.KernelIdeal.Launch
import proofs.«113383_g81114752352452_cont_sun_c4_492_19_alg».proof.Proof.Gen.KernelIdeal.Points
import proofs.«113383_g81114752352452_cont_sun_c4_492_19_alg».proof.Proof.Gen.KernelIdeal.Frame
import proofs.«113383_g81114752352452_cont_sun_c4_492_19_alg».proof.Proof.Gen.ReferenceIdeal
import proofs.«113383_g81114752352452_cont_sun_c4_492_19_alg».proof.Proof.Gen.Pre_finite_inputs
import proofs.«113383_g81114752352452_cont_sun_c4_492_19_alg».proof.Proof.Gen.KernelIdeal.Value
import proofs.«113383_g81114752352452_cont_sun_c4_492_19_alg».proof.Proof.KRun
import proofs.«113383_g81114752352452_cont_sun_c4_492_19_alg».proof.Proof.RRun
import Idealize.ShloMosaic.Adequacy
import Idealize.ShloMosaic.Init

noncomputable section

namespace Cert.Proof

open Idealize.ShloMosaic Idealize.SL.Sem

/-- The kernel runs and leaves its arguments unchanged: the generated frame. -/
theorem frame_k : Cert.frame_Kernel := fun m ρ _ => Cert.Kernel.Gen.frame m ρ

/-- The idealized kernel runs and leaves its arguments unchanged: the generated frame. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with their result arrays at `Cert.Spec.out` of argument arrays that agree. -/
theorem algebraic : Cert.algebraic_KernelIdeal_ReferenceIdeal := by
  intro m ρ m' ρ' _ hagree
  refine ⟨fun c => Cert.KRun.result m c, Cert.KRun.run m ρ, ?_⟩
  refine (θ_run Cert.ReferenceIdeal.defs _ _).mono (fun r h c => ⟨(h c).1.trans ?_, (h c).2⟩)
    (Cert.RefOut.ref_run m' ρ')
  obtain ⟨h0, h1, h2, h3, h4, h5, h6, h7⟩ := hagree c
  rw [h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
